-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_
  reducesTo_S4096x4096_S4096_d1 : S4096x4096.ReducesTo [1] S4096
  dot_S4096x16_S16x4096_S4096x4096_1_0_0_1_n_n_wf : DotDims.WF S4096x16 S16x4096 S4096x4096 [1] [0] [0] [1] [] []

variable [Facts]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def fn_part2 {F : FTy → Type} [FloatOps F] (main_v23 : IVec S_ 1) (main_v33 : IVec S_ 1) : IVec S_ 1 :=
  let main_v34 : IVec S_ 1 := andi main_v23 main_v33
  main_v34

def fn_part1 {F : FTy → Type} [FloatOps F] (main_arg1 : FVec F S4096x4096 .f32) (main_arg2 : FVec F S16x4096 .f32) (main_arg3 : FVec F S4096x16 .f32) (main_arg4 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := (fun l r => Host.dotGeneral dot_S4096x16_S16x4096_S4096x4096_1_0_0_1_n_n none l r) main_arg3 main_arg2
  let main_cst_8 : FVec F S_ .f32 := constant S_ .f32 0x40000000#32
  let main_v25 : FVec F S4096x4096 .f32 := broadcastInDim S4096x4096 ![] bcast_S_S4096x4096 main_cst_8
  let main_v26 : FVec F S4096x4096 .f32 := mulf main_v25 main_v24
  let main_v27 : FVec F S4096x4096 .f32 := addf main_arg1 main_v26
  let main_v28 : FVec F S4096x4096 .f32 := mulf main_v27 main_v27
  let main_cst_9 : FVec F S_ .f32 := constant S_ .f32 0x00000000#32
  let main_v29 : FVec F S4096 .f32 := (fun x v => Host.reduceAdd x v reducesTo_S4096x4096_S4096_d1 h_S_) main_v28 main_cst_9
  let main_v30 : FVec F S4096 .f32 := Host.sqrt main_v29
  let main_cst_10 : FVec F S_ .f32 := constant S_ .f32 0x00000000#32
  let main_v31 : FVec F S4096 .f32 := broadcastInDim S4096 ![] bcast_S_S4096 main_cst_10
  let main_v32 : IVec S4096 1 := cmpf .une main_v30 main_v31
  let main_c_11 : IVec S_ 1 := constantI S_ 1 1#1
  let main_v33 : IVec S_ 1 := (fun x v => Host.reduce IntOp.andi x v reducesTo_S4096_S_d0 h_S_) main_v32 main_c_11
  fn_part2 (F := F) main_v23 main_v33

def fn {F : FTy → Type} [FloatOps F] (main_arg0 : FVec F S4x2048x4096 .f32) (main_arg1 : FVec F S4096x4096 .f32) (main_arg2 : FVec F S16x4096 .f32) (main_arg3 : FVec F S4096x16 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg1 main_arg2 main_arg3 main_arg4 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S512x16 : Shape := ⟨2, ![512, 16]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x16, .f32⟩
  | .local _ .vmem, ⟨5, _⟩ => ⟨S512x16, .f32⟩
  | .local _ .vmem, ⟨6, _⟩ => ⟨S16x4096, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x4096, .f32⟩
  | .local _ .vmem, ⟨12, _⟩ => ⟨S1x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S512x16_S512x16_0_0 : ∀ a, (![0, 0] : Fin 2 → Nat) a + S512x16.size a ≤ S512x16.size a
  h_S512x16 : 0 < S512x16.numel
  inb_S16x4096_S16x4096_0_0 : ∀ a, (![0, 0] : Fin 2 → Nat) a + S16x4096.size a ≤ S16x4096.size a
  h_S16x4096 : 0 < S16x4096.numel
  reduces_S512x4096_S512 : S512x4096.Reduces [1] S512
  shapeCasts_S512_S512x1 : S512.ShapeCasts S512x1
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S512x4096_S512x4096 : S512x4096.ShapeCasts S512x4096
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  dot_S512x16_S16x4096_S512x4096_1_0_0_1_n_n_wf : DotDims.WF S512x16 S16x4096 S512x4096 [1] [0] [0] [1] [] []
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .f32 = 32 ∨ (Rect.block (s := S4096x16) S512x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .f32 = 32 ∨ (Rect.block (s := S16x4096) S16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x4096.size a
  hwx0_5 : ∀ i : grid0.Coords, EltTy.bits .f32 = 32 ∨ (Rect.block (s := S8192x4096) S512x512.size (cc0_transform_5 i) (hinb0_5 i)).WholeWords (EltTy.packing .f32)

variable [Facts₀]

def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S4x2048x16 : Shape := ⟨3, ![4, 2048, 16]⟩
abbrev S_ : Shape := ⟨0, ![]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S4x2048x4096, .f32⟩
  | .hbm, ⟨6, _⟩ => ⟨S4x2048x16, .f32⟩
  | .hbm, ⟨7, _⟩ => ⟨S4x2048x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S1x1x4096, .f32⟩
  | .hbm, ⟨19, _⟩ => ⟨S_, .f32⟩
  | .hbm, ⟨20, _⟩ => ⟨S1x1x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S_, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S1x1x4096_2 : S4096.BroadcastsInDim S1x1x4096 (![2] : Fin 1 → Fin S1x1x4096.rank)
  bcast_S_S1x1x4096 : S_.BroadcastsInDim S1x1x4096 (![] : Fin 0 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []
  dot_S4096x16_S16x4096_S4096x4096_1_0_0_1_n_n_wf : DotDims.WF S4096x16 S16x4096 S4096x4096 [1] [0] [0] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.Spec.lean ====
/-
  The layer both programs compute, as plain functions on the extended reals.

  A linear layer whose weight matrix W (4096 rows, one per output feature) is corrected by a product of two thin
  matrices, B (4096 x 16) times A (16 x 4096), doubled; every row of the corrected matrix E is then rescaled to a
  prescribed length g o:

      E o i = W o i + 2 * (sum over r of B o r * A r i),     |E o| = sqrt (sum over i of (E o i)^2).

  Two arrangements of the output feature o of an input row x:

    fused :  (sum over i of x i * E o i) * (g o / |E o|)
    split :  ((g o / |E o| - 1) * (x . W o) + ((g o / |E o|) * (sum over r of (x . A r) * B o r)) * 2) + (x . W o)

  They are the same number whenever every entry is a real number and |E o| is not zero (distributivity, which the
  extended reals have only away from the infinities); with |E o| = 0 the quotient is an infinity and they differ.
-/
import Idealize.ShloMosaic.PureOps.Ideal
import Idealize.ShloMosaic.Lib.ValueIdx

noncomputable section

open scoped BigOperators

namespace Cert.Spec

open Idealize.ShloMosaic Idealize.ShloMosaic.ValueIdx

abbrev SX3 : Shape := ⟨3, ![4, 2048, 4096]⟩
abbrev SX2 : Shape := ⟨2, ![8192, 4096]⟩
abbrev SW : Shape := ⟨2, ![4096, 4096]⟩
abbrev SA : Shape := ⟨2, ![16, 4096]⟩
abbrev SB : Shape := ⟨2, ![4096, 16]⟩
abbrev SG : Shape := ⟨1, ![4096]⟩

/-- The numbers two and one, as the single-precision words the programs carry. -/
def two : EReal := Ideal.ofBits .f32 0x40000000#32
def one : EReal := Ideal.ofBits .f32 0x3F800000#32

/-- Entry (o, i) of the corrected weight matrix: W o i + 2 * (B A) o i. -/
def eff (W : SW.Idx → EReal) (A : SA.Idx → EReal) (B : SB.Idx → EReal) (o i : Fin 4096) : EReal :=
  W (ix2 o i) + two * ∑ r : Fin 16, B (ix2 o r) * A (ix2 r i)

/-- The sum of the squares of row o of the corrected matrix. -/
def sumSq (W : SW.Idx → EReal) (A : SA.Idx → EReal) (B : SB.Idx → EReal) (o : Fin 4096) : EReal :=
  ∑ i : Fin 4096, eff W A B o i * eff W A B o i

/-- The length of row o of the corrected matrix. -/
def len (W : SW.Idx → EReal) (A : SA.Idx → EReal) (B : SB.Idx → EReal) (o : Fin 4096) : EReal :=
  Ideal.sqrt (sumSq W A B o)

/-- The factor that brings row o to its prescribed length: g o / |E o|. -/
def gain (W : SW.Idx → EReal) (A : SA.Idx → EReal) (B : SB.Idx → EReal) (G : SG.Idx → EReal) (o : Fin 4096) : EReal :=
  Ideal.div (G (ix1 o)) (len W A B o)

/-- The fused arrangement: the input row against row o of the corrected matrix, rescaled. -/
def fused (x : Fin 4096 → EReal) (W : SW.Idx → EReal) (A : SA.Idx → EReal) (B : SB.Idx → EReal) (G : SG.Idx → EReal)
    (o : Fin 4096) : EReal :=
  (∑ i : Fin 4096, x i * eff W A B o i) * gain W A B G o

/-- The input row against row o of the uncorrected matrix. -/
def base (x : Fin 4096 → EReal) (W : SW.Idx → EReal) (o : Fin 4096) : EReal :=
  ∑ i : Fin 4096, x i * W (ix2 o i)

/-- The input row through the two thin matrices: first against the 16 rows of A, then against row o of B. -/
def low (x : Fin 4096 → EReal) (A : SA.Idx → EReal) (B : SB.Idx → EReal) (o : Fin 4096) : EReal :=
  ∑ r : Fin 16, (∑ i : Fin 4096, x i * A (ix2 r i)) * B (ix2 o r)

/-- The split arrangement: the base product and the thin product rescaled separately, then recombined. -/
def split (x : Fin 4096 → EReal) (W : SW.Idx → EReal) (A : SA.Idx → EReal) (B : SB.Idx → EReal) (G : SG.Idx → EReal)
    (o : Fin 4096) : EReal :=
  ((gain W A B G o - one) * base x W o + (gain W A B G o * low x A B o) * two) + base x W o

/-- Every entry of an array is a real number (neither infinity). -/
def AllReal {S : Shape} (v : S.Idx → EReal) : Prop := ∀ j : S.Idx, ∃ r : ℝ, v j = (r : EReal)

end Cert.Spec

end
-- ==== Proof.KernelResult.lean ====
/-
  The array the kernel program is to end with: at (b, s, o) the fused arrangement of the input row (b, s), over the
  program's five argument arrays on a core (x; W; A, the 16 x 4096 matrix; B, the 4096 x 16 matrix; g).
-/
import proofs.«127442_j64811056496880_2_alg».proof.KernelIdeal
import proofs.«127442_j64811056496880_2_alg».proof.Proof.Spec

noncomputable section

namespace Cert.KernelIdeal.Result

open Cert.KernelIdeal Idealize.ShloMosaic Idealize.ShloMosaic.ValueIdx Idealize.SL.Sem

/-- The result array on core c, from the initial memory m. -/
def result (m : (ℓ : Loc nD τ sig) → Buf (Elt Ideal) ℓ) (c : Dev nD) :
    Buf (Elt Ideal) ((c.tc : Thread nD τ).loc main_v3) :=
  fun j => Cert.Spec.fused (fun i => m ((c.tc : Thread nD τ).loc main_arg0) (ix3 (j 0) (j 1) i))
    (m ((c.tc : Thread nD τ).loc main_arg1)) (m ((c.tc : Thread nD τ).loc main_arg2))
    (m ((c.tc : Thread nD τ).loc main_arg3)) (m ((c.tc : Thread nD τ).loc main_arg4)) (j 2)

end Cert.KernelIdeal.Result

end
-- ==== Proof.RefSide.lean ====
/-
  The reference program's result, read index by index.

  Each stage of the reference program is read at an index given by its coordinates, innermost stages first:
  the thin product B A, the corrected matrix E, the sum of the squares of a row of E, the rescaling factor
  g o / |E o|, and the three contractions of the input row (against W, against A, then against B). The result
  at (b, s, o) is then, term for term, the split arrangement of the input row (b, s) at the output feature o.
-/
import proofs.«127442_j64811056496880_2_alg».proof.Proof.Gen.ReferenceIdeal.Read
import proofs.«127442_j64811056496880_2_alg».proof.Proof.Spec

noncomputable section

open scoped BigOperators

namespace Cert.RefSide

open Idealize.ShloMosaic Idealize.ShloMosaic.ValueIdx Cert.ReferenceIdeal Cert.ReferenceIdeal.Read

/-! ### The index functions of the contractions and layout steps, at an index given by coordinates -/

theorem lidx_v0 (b : Fin 4) (s : Fin 2048) (o k : Fin 4096) : lidx_main_v0 (ix3 b s o) k = ix3 b s k :=
  funext fun a => Fin.ext (by match a with | ⟨0, _⟩ => rfl | ⟨1, _⟩ => rfl | ⟨2, _⟩ => rfl)
theorem ridx_v0 (b : Fin 4) (s : Fin 2048) (o k : Fin 4096) : ridx_main_v0 (ix3 b s o) k = ix2 o k :=
  funext fun a => Fin.ext (by match a with | ⟨0, _⟩ => rfl | ⟨1, _⟩ => rfl)
theorem lidx_v1 (b : Fin 4) (s : Fin 2048) (r : Fin 16) (k : Fin 4096) : lidx_main_v1 (ix3 b s r) k = ix3 b s k :=
  funext fun a => Fin.ext (by match a with | ⟨0, _⟩ => rfl | ⟨1, _⟩ => rfl | ⟨2, _⟩ => rfl)
theorem ridx_v1 (b : Fin 4) (s : Fin 2048) (r : Fin 16) (k : Fin 4096) : ridx_main_v1 (ix3 b s r) k = ix2 r k :=
  funext fun a => Fin.ext (by match a with | ⟨0, _⟩ => rfl | ⟨1, _⟩ => rfl)
theorem lidx_v2 (b : Fin 4) (s : Fin 2048) (o : Fin 4096) (k : Fin 16) : lidx_main_v2 (ix3 b s o) k = ix3 b s k :=
  funext fun a => Fin.ext (by match a with | ⟨0, _⟩ => rfl | ⟨1, _⟩ => rfl | ⟨2, _⟩ => rfl)
theorem ridx_v2 (b : Fin 4) (s : Fin 2048) (o : Fin 4096) (k : Fin 16) : ridx_main_v2 (ix3 b s o) k = ix2 o k :=
  funext fun a => Fin.ext (by match a with | ⟨0, _⟩ => rfl | ⟨1, _⟩ => rfl)
theorem lidx_v3 (o i : Fin 4096) (k : Fin 16) : lidx_main_v3 (ix2 o i) k = ix2 o k :=
  funext fun a => Fin.ext (by match a with | ⟨0, _⟩ => rfl | ⟨1, _⟩ => rfl)
theorem ridx_v3 (o i : Fin 4096) (k : Fin 16) : ridx_main_v3 (ix2 o i) k = ix2 k i :=
  funext fun a => Fin.ext (by match a with | ⟨0, _⟩ => rfl | ⟨1, _⟩ => rfl)
theorem idx_call0_v1 (o k : Fin 4096) : idx_main_call0_v1 (ix1 o) k = ix2 o k :=
  funext fun a => Fin.ext (by match a with | ⟨0, _⟩ => rfl | ⟨1, _⟩ => rfl)
theorem idx_v9_v12 (b : Fin 4) (s : Fin 2048) (o : Fin 4096) : idx_main_v9 (idx_main_v12 (ix3 b s o)) = ix1 o :=
  funext fun a => Fin.ext (by match a with | ⟨0, _⟩ => rfl)

variable (x0 : Cert.Spec.SX3.Idx → EReal) (x1 : Cert.Spec.SW.Idx → EReal) (x2 : Cert.Spec.SA.Idx → EReal)
  (x3 : Cert.Spec.SB.Idx → EReal) (x4 : Cert.Spec.SG.Idx → EReal)

/-- The thin product B A at (o, i). -/
theorem v3_at (o i : Fin 4096) :
    val_main_v3 (F := Ideal) x2 x3 (ix2 o i) = ∑ r : Fin 16, x3 (ix2 o r) * x2 (ix2 r i) := by
  rw [val_main_v3_apply]
  exact Finset.sum_congr rfl fun k _ => by rw [lidx_v3, ridx_v3]

/-- The corrected matrix at (o, i). -/
theorem v6_at (o i : Fin 4096) :
    val_main_v6 (F := Ideal) x1 x2 x3 (ix2 o i) = Cert.Spec.eff x1 x2 x3 o i := by
  rw [val_main_v6_apply, val_main_v5_apply, val_main_v4_apply, val_main_cst_apply, v3_at]
  rfl

/-- The sum of the squares of row o of the corrected matrix: the row sum's leading word is zero. -/
theorem call0_v1_at (o : Fin 4096) :
    val_main_call0_v1 (F := Ideal) x1 x2 x3 (ix1 o) = Cert.Spec.sumSq x1 x2 x3 o := by
  rw [val_main_call0_v1_apply, val_main_call0_cst_apply, Ideal.ofBits_def, Ideal.ofBits_zero_f32, zero_add]
  exact Finset.sum_congr rfl fun k _ => by rw [idx_call0_v1, val_main_call0_v0_apply, v6_at]; rfl

/-- The rescaling factor of row o. -/
theorem v8_at (o : Fin 4096) :
    val_main_v8 (F := Ideal) x1 x2 x3 x4 (ix1 o) = Cert.Spec.gain x1 x2 x3 x4 o := by
  rw [val_main_v8_apply, val_main_v7_apply, call0_v1_at]
  rfl

/-- The input row against row o of the uncorrected matrix. -/
theorem v0_at (b : Fin 4) (s : Fin 2048) (o : Fin 4096) :
    val_main_v0 (F := Ideal) x0 x1 (ix3 b s o) = Cert.Spec.base (fun i => x0 (ix3 b s i)) x1 o := by
  rw [val_main_v0_apply]
  exact Finset.sum_congr rfl fun k _ => by rw [lidx_v0, ridx_v0]

/-- The input row against row r of A. -/
theorem v1_at (b : Fin 4) (s : Fin 2048) (r : Fin 16) :
    val_main_v1 (F := Ideal) x0 x2 (ix3 b s r) = ∑ i : Fin 4096, x0 (ix3 b s i) * x2 (ix2 r i) := by
  rw [val_main_v1_apply]
  exact Finset.sum_congr rfl fun k _ => by rw [lidx_v1, ridx_v1]

/-- The input row through the two thin matrices. -/
theorem v2_at (b : Fin 4) (s : Fin 2048) (o : Fin 4096) :
    val_main_v2 (F := Ideal) x0 x2 x3 (ix3 b s o) = Cert.Spec.low (fun i => x0 (ix3 b s i)) x2 x3 o := by
  rw [val_main_v2_apply]
  exact Finset.sum_congr rfl fun k _ => by rw [lidx_v2, ridx_v2, v1_at]

/-- The reference program's result at (b, s, o) is the split arrangement of the input row (b, s). -/
theorem result_apply (b : Fin 4) (s : Fin 2048) (o : Fin 4096) :
    val_main_v19 (F := Ideal) x0 x1 x2 x3 x4 (ix3 b s o)
      = Cert.Spec.split (fun i => x0 (ix3 b s i)) x1 x2 x3 x4 o := by
  rw [val_main_v19_apply, val_main_v18_apply, val_main_v13_apply, val_main_v12_apply, val_main_v11_apply,
    val_main_v9_apply, val_main_v10_apply, val_main_cst_0_apply, val_main_v17_apply, val_main_v15_apply,
    val_main_v14_apply, val_main_v9_apply, val_main_v16_apply, val_main_cst_1_apply,
    idx_v9_v12, v8_at, v0_at, v2_at]
  rfl

end Cert.RefSide

end
-- ==== Proof.Law.lean ====
/-
  The fused and the split arrangement of the rescaled corrected linear layer are the same number.

  Every entry being a real number, every quantity of Proof/Spec.lean is the image of a real expression: the image
  of the reals in the extended reals is closed under sums, products and differences, the square root of a
  nonnegative real is a real, and the quotient by a nonzero real is the product with its reciprocal.  Once both
  arrangements are images of real expressions the claim is the real identity

      (x . (w + 2 (b a))) c = ((c - 1) (x . w) + (c (sum over r of (x . a r) b r)) 2) + x . w,

  which is distributivity together with an exchange of the two summations.
-/
import proofs.«127442_j64811056496880_2_alg».proof.Proof.Spec

noncomputable section

open scoped BigOperators

namespace Cert.Law

open Idealize.ShloMosaic Idealize.ShloMosaic.ValueIdx Cert.Spec

/-! ### The real identity, over abstract finite index sets -/

/-- The input against the corrected row: the correction passes through the two thin factors. -/
theorem real_dot_eff {ι κ : Type*} [Fintype ι] [Fintype κ] (x w : ι → ℝ) (a : κ → ι → ℝ) (b : κ → ℝ) :
    ∑ i, x i * (w i + 2 * ∑ r, b r * a r i)
      = (∑ i, x i * w i) + 2 * ∑ r, (∑ i, x i * a r i) * b r := by
  calc ∑ i, x i * (w i + 2 * ∑ r, b r * a r i)
      = ∑ i, (x i * w i + ∑ r, 2 * (x i * a r i * b r)) := by
        refine Finset.sum_congr rfl (fun i _ => ?_)
        rw [mul_add, Finset.mul_sum, Finset.mul_sum]
        congr 1
        exact Finset.sum_congr rfl (fun r _ => by ring)
    _ = (∑ i, x i * w i) + ∑ i, ∑ r, 2 * (x i * a r i * b r) := Finset.sum_add_distrib
    _ = (∑ i, x i * w i) + ∑ r, ∑ i, 2 * (x i * a r i * b r) := by rw [Finset.sum_comm]
    _ = (∑ i, x i * w i) + 2 * ∑ r, (∑ i, x i * a r i) * b r := by
        rw [Finset.mul_sum]
        congr 1
        refine Finset.sum_congr rfl (fun r _ => ?_)
        rw [Finset.sum_mul, Finset.mul_sum]

/-- The two arrangements agree over the reals, for any factor c. -/
theorem real_law {ι κ : Type*} [Fintype ι] [Fintype κ] (x w : ι → ℝ) (a : κ → ι → ℝ) (b : κ → ℝ) (c : ℝ) :
    (∑ i, x i * (w i + 2 * ∑ r, b r * a r i)) * c
      = ((c - 1) * (∑ i, x i * w i) + (c * ∑ r, (∑ i, x i * a r i) * b r) * 2) + ∑ i, x i * w i := by
  rw [real_dot_eff]; ring

/-! ### The image of the reals is closed under finite sums -/

/-- The image in the extended reals of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite index type. -/
theorem coe_sum {ι : Type*} [Fintype ι] (f : ι → ℝ) :
    ((∑ i, f i : ℝ) : EReal) = ∑ i, (f i : EReal) :=
  coe_finset_sum Finset.univ f

/-! ### The two constants -/

/-- The word 0x40000000 denotes the real number 2. -/
theorem two_eq : two = ((2 : ℝ) : EReal) := by
  simp [two, Ideal.ofBits, Ideal.ieee, -EReal.coe_mul]; norm_num

/-- The word 0x3F800000 denotes the real number 1. -/
theorem one_eq : one = ((1 : ℝ) : EReal) := by
  simp [one, Ideal.ofBits, Ideal.ieee, -EReal.coe_mul]; norm_num

/-! ### Every quantity of the layer, over real entries, is the image of a real expression -/

section Coe

variable (xr : Fin 4096 → ℝ) (Wr : SW.Idx → ℝ) (Ar : SA.Idx → ℝ) (Br : SB.Idx → ℝ) (Gr : SG.Idx → ℝ)

/-- Entry (o, i) of the corrected matrix, as a real. -/
def effR (o i : Fin 4096) : ℝ := Wr (ix2 o i) + 2 * ∑ r : Fin 16, Br (ix2 o r) * Ar (ix2 r i)

/-- The sum of the squares of row o of the corrected matrix, as a real. -/
def sumSqR (o : Fin 4096) : ℝ := ∑ i : Fin 4096, effR Wr Ar Br o i * effR Wr Ar Br o i

theorem sumSqR_nonneg (o : Fin 4096) : 0 ≤ sumSqR Wr Ar Br o :=
  Finset.sum_nonneg (fun i _ => mul_self_nonneg _)

theorem eff_coe (o i : Fin 4096) :
    eff (fun j => (Wr j : EReal)) (fun j => (Ar j : EReal)) (fun j => (Br j : EReal)) o i
      = ((effR Wr Ar Br o i : ℝ) : EReal) := by
  unfold eff effR
  rw [two_eq, EReal.coe_add, EReal.coe_mul, coe_sum]
  congr 2

theorem sumSq_coe (o : Fin 4096) :
    sumSq (fun j => (Wr j : EReal)) (fun j => (Ar j : EReal)) (fun j => (Br j : EReal)) o
      = ((sumSqR Wr Ar Br o : ℝ) : EReal) := by
  unfold sumSq sumSqR
  rw [coe_sum]
  refine Finset.sum_congr rfl (fun i _ => ?_)
  rw [eff_coe, EReal.coe_mul]

theorem len_coe (o : Fin 4096) :
    len (fun j => (Wr j : EReal)) (fun j => (Ar j : EReal)) (fun j => (Br j : EReal)) o
      = ((Real.sqrt (sumSqR Wr Ar Br o) : ℝ) : EReal) := by
  unfold len
  rw [sumSq_coe, Ideal.sqrt_coe, if_neg (not_lt.mpr (sumSqR_nonneg Wr Ar Br o))]

theorem gain_coe (o : Fin 4096) (h : Real.sqrt (sumSqR Wr Ar Br o) ≠ 0) :
    gain (fun j => (Wr j : EReal)) (fun j => (Ar j : EReal)) (fun j => (Br j : EReal))
        (fun j => (Gr j : EReal)) o
      = ((Gr (ix1 o) * (1 / Real.sqrt (sumSqR Wr Ar Br o)) : ℝ) : EReal) := by
  unfold gain
  rw [len_coe, Ideal.div_coe h, EReal.coe_mul]

theorem base_coe (o : Fin 4096) :
    base (fun i => (xr i : EReal)) (fun j => (Wr j : EReal)) o
      = ((∑ i : Fin 4096, xr i * Wr (ix2 o i) : ℝ) : EReal) := by
  unfold base
  rw [coe_sum]
  exact Finset.sum_congr rfl (fun i _ => (EReal.coe_mul _ _).symm)

theorem low_coe (o : Fin 4096) :
    low (fun i => (xr i : EReal)) (fun j => (Ar j : EReal)) (fun j => (Br j : EReal)) o
      = ((∑ r : Fin 16, (∑ i : Fin 4096, xr i * Ar (ix2 r i)) * Br (ix2 o r) : ℝ) : EReal) := by
  unfold low
  rw [coe_sum]
  refine Finset.sum_congr rfl (fun r _ => ?_)
  rw [EReal.coe_mul, coe_sum]
  congr 1

theorem dot_eff_coe (o : Fin 4096) :
    (∑ i : Fin 4096, (xr i : EReal)
        * eff (fun j => (Wr j : EReal)) (fun j => (Ar j : EReal)) (fun j => (Br j : EReal)) o i)
      = ((∑ i : Fin 4096, xr i * effR Wr Ar Br o i : ℝ) : EReal) := by
  rw [coe_sum]
  refine Finset.sum_congr rfl (fun i _ => ?_)
  rw [eff_coe, EReal.coe_mul]

end Coe

/-! ### The law -/

/-- With real entries and a row of nonzero length, the fused and the split arrangement agree. -/
theorem fused_eq_split (x : Fin 4096 → EReal) (W : SW.Idx → EReal) (A : SA.Idx → EReal) (B : SB.Idx → EReal)
    (G : SG.Idx → EReal) (o : Fin 4096)
    (hx : ∀ i, ∃ r : ℝ, x i = (r : EReal)) (hW : AllReal W) (hA : AllReal A) (hB : AllReal B) (hG : AllReal G)
    (hlen : len W A B o ≠ 0) :
    fused x W A B G o = split x W A B G o := by
  choose xr hxr using hx
  choose Wr hWr using hW
  choose Ar hAr using hA
  choose Br hBr using hB
  choose Gr hGr using hG
  obtain rfl : x = fun i => (xr i : EReal) := funext hxr
  obtain rfl : W = fun j => (Wr j : EReal) := funext hWr
  obtain rfl : A = fun j => (Ar j : EReal) := funext hAr
  obtain rfl : B = fun j => (Br j : EReal) := funext hBr
  obtain rfl : G = fun j => (Gr j : EReal) := funext hGr
  have hs : Real.sqrt (sumSqR Wr Ar Br o) ≠ 0 := by
    intro h0
    apply hlen
    rw [len_coe, h0, EReal.coe_zero]
  unfold fused split
  rw [gain_coe Wr Ar Br Gr o hs, base_coe, low_coe, one_eq, two_eq]
  show (∑ i : Fin 4096, (xr i : EReal) * eff _ _ _ o i) * _ = _
  rw [dot_eff_coe, ← EReal.coe_sub, ← EReal.coe_mul, ← EReal.coe_mul, ← EReal.coe_mul, ← EReal.coe_mul,
    ← EReal.coe_add, ← EReal.coe_add]
  congr 1
  exact real_law xr (fun i => Wr (ix2 o i)) (fun r i => Ar (ix2 r i)) (fun r => Br (ix2 o r)) _

end Cert.Law

end
-- ==== Proof.Domain.lean ====
/-
  What the printed precondition says, in the vocabulary of Spec.

  The precondition is one bit: the conjunction of six tests. Five say that every entry v of an input array has
  |v| < +infinity; on the extended reals that is: v is a real number (both infinities have absolute value +infinity).
  The sixth says that for every output feature o the square root of 0 + (sum over i of (E o i)^2) differs from 0, where
  E = W + 2 * (B A) is the corrected matrix: that square root is the row length |E o| of Spec.

  A conjunction that is 1 has every conjunct 1; an "all" over an array (a reduction by "and" from 1) that is 1 has every
  element 1; a comparison bit that is 1 says its comparison holds. The rest is reading the sixth test's arithmetic at
  one index: a matrix product at (o, i) is the sum over the 16 inner coordinates, a row sum at o is the sum over the
  4096 columns, both without evaluating any sum.
-/
import proofs.«127442_j64811056496880_2_alg».proof.Pre_finite_inputs
import proofs.«127442_j64811056496880_2_alg».proof.Proof.Spec
import Idealize.ShloMosaic.Lib.ReduceAll
import Idealize.ShloMosaic.PureOps.Ideal.Laws
import Idealize.ShloMosaic.Lib.ValueIdx
import Idealize.ShloMosaic.Lib.Pipeline.Value

noncomputable section

open scoped BigOperators

namespace Cert.Domain

open Idealize.ShloMosaic Idealize.ShloMosaic.ValueIdx Cert.Pre_finite_inputs Cert.Pre_finite_inputs.Facts

variable [Cert.Pre_finite_inputs.Facts]

/-- The scalar shape has one index. -/
instance : Subsingleton S_.Idx := ⟨fun a b => funext fun d => d.elim0⟩

/-! ## One element: |v| < +infinity means v is real -/

/-- The single-precision word with all exponent bits set and no fraction bit is +infinity. -/
theorem inf_word : Ideal.ofBits .f32 0x7F800000#32 = ⊤ := by
  simp [Ideal.ofBits, Ideal.ieee]

/-- An extended real whose absolute value max v (-v) is below +infinity is a real number. -/
theorem real_of_abs_lt_inf (v : EReal)
    (h : Ideal.cmp .olt (max v (-v)) (Ideal.ofBits .f32 0x7F800000#32) = 1#1) : ∃ r : ℝ, v = (r : EReal) := by
  rw [inf_word] at h
  induction v using EReal.rec with
  | bot => simp [Ideal.cmp] at h
  | coe r => exact ⟨r, rfl⟩
  | top => simp [Ideal.cmp] at h

/-- One "all entries finite" test that came out 1: every entry of the array is real. -/
theorem allReal_of_test {S : Shape} {axes : List (Fin S.rank)} (v : S.Idx → EReal)
    (hb : S_.BroadcastsInDim S (![] : Fin 0 → Fin S.rank)) (hr : S.ReducesTo axes S_) (hu : 0 < S_.numel)
    (e : Host.reduce IntOp.andi
          (cmpf (F := Ideal) (φ := .f32) .olt (Host.absf (F := Ideal) (φ := .f32) v)
            (broadcastInDim S ![] hb (constant (F := Ideal) S_ .f32 0x7F800000#32)))
          (constantI S_ 1 1#1) hr hu ix0 = 1#1) :
    Cert.Spec.AllReal v := by
  intro j
  have ej := Host.reduce_andi_all _ _ hr hu ix0 e j
  exact real_of_abs_lt_inf (v j) ej

/-! ## The sixth test read at an index -/

/-- The left operand's row coordinate is the output's row. -/
theorem lhs_row (i : S4096x4096.Idx) (q : dot_S4096x16_S16x4096_S4096x4096_1_0_0_1_n_n.contr.Idx) : (dot_S4096x16_S16x4096_S4096x4096_1_0_0_1_n_n.lhsIdx i q 0).val = (i 0).val := by
  have hb : ¬(0 : Fin S4096x16.rank) ∈ dot_S4096x16_S16x4096_S4096x4096_1_0_0_1_n_n.lhsBatch := by
    show ¬(0 : Fin 2) ∈ ([] : List (Fin 2)); decide
  have hn : (0 : Fin S4096x16.rank) ∈ dot_S4096x16_S16x4096_S4096x4096_1_0_0_1_n_n.lhsNonContracting := by
    show (0 : Fin 2) ∈ ([0] : List (Fin 2)); decide
  unfold DotDims.lhsIdx
  rw [dif_neg hb, dif_pos hn]
  rfl
/-- The right operand's column coordinate is the output's column. -/
theorem rhs_col (i : S4096x4096.Idx) (q : dot_S4096x16_S16x4096_S4096x4096_1_0_0_1_n_n.contr.Idx) : (dot_S4096x16_S16x4096_S4096x4096_1_0_0_1_n_n.rhsIdx i q 1).val = (i 1).val := by
  have hb : ¬(1 : Fin S16x4096.rank) ∈ dot_S4096x16_S16x4096_S4096x4096_1_0_0_1_n_n.rhsBatch := by
    show ¬(1 : Fin 2) ∈ ([] : List (Fin 2)); decide
  have hn : (1 : Fin S16x4096.rank) ∈ dot_S4096x16_S16x4096_S4096x4096_1_0_0_1_n_n.rhsNonContracting := by
    show (1 : Fin 2) ∈ ([1] : List (Fin 2)); decide
  unfold DotDims.rhsIdx
  rw [dif_neg hb, dif_pos hn]
  rfl

/-- Entry (o, c) of the product B A is the sum over the 16 inner coordinates of B o r * A r c. -/
theorem dot_apply (A : Cert.Spec.SA.Idx → EReal) (B : Cert.Spec.SB.Idx → EReal) (o c : Fin 4096) :
    Host.dotGeneral (F := Ideal) (φ₁ := .f32) (φ₂ := .f32) dot_S4096x16_S16x4096_S4096x4096_1_0_0_1_n_n none B A (ix2 o c)
      = ∑ r : Fin 16, B (ix2 o r) * A (ix2 r c) := by
  simp only [Host.dotGeneral]
  rw [Ideal.dotGeneral_apply, ← Equiv.sum_comp (contrEquiv1 dot_S4096x16_S16x4096_S4096x4096_1_0_0_1_n_n 16 rfl rfl).symm]
  refine Finset.sum_congr rfl fun k _ => ?_
  have hk := contrEquiv1_symm_val dot_S4096x16_S16x4096_S4096x4096_1_0_0_1_n_n 16 rfl rfl k
  have el : dot_S4096x16_S16x4096_S4096x4096_1_0_0_1_n_n.lhsIdx (ix2 o c) ((contrEquiv1 dot_S4096x16_S16x4096_S4096x4096_1_0_0_1_n_n 16 rfl rfl).symm k) = ix2 o k := funext fun a => Fin.ext (by
    match a with
    | ⟨0, _⟩ => exact lhs_row _ _
    | ⟨1, _⟩ => exact (dot_S4096x16_S16x4096_S4096x4096_1_0_0_1_n_n.lhsIdx_val_of_single rfl _ _).trans hk)
  have er : dot_S4096x16_S16x4096_S4096x4096_1_0_0_1_n_n.rhsIdx (ix2 o c) ((contrEquiv1 dot_S4096x16_S16x4096_S4096x4096_1_0_0_1_n_n 16 rfl rfl).symm k) = ix2 k c := funext fun a => Fin.ext (by
    match a with
    | ⟨0, _⟩ => exact (dot_S4096x16_S16x4096_S4096x4096_1_0_0_1_n_n.rhsIdx_val_of_single rfl _ _).trans hk
    | ⟨1, _⟩ => exact rhs_col _ _)
  rw [el, er]

/-- The corrected matrix as the precondition computes it: W + 2 * (B A). -/
def corrected (W : Cert.Spec.SW.Idx → EReal) (A : Cert.Spec.SA.Idx → EReal) (B : Cert.Spec.SB.Idx → EReal) :
    FVec Ideal S4096x4096 .f32 :=
  addf W (mulf (broadcastInDim S4096x4096 ![] bcast_S_S4096x4096 (constant (F := Ideal) S_ .f32 0x40000000#32))
    (Host.dotGeneral (F := Ideal) (φ₁ := .f32) (φ₂ := .f32) dot_S4096x16_S16x4096_S4096x4096_1_0_0_1_n_n none B A))

/-- Its entry (o, c) is Spec's E o c. -/
theorem corrected_apply (W : Cert.Spec.SW.Idx → EReal) (A : Cert.Spec.SA.Idx → EReal) (B : Cert.Spec.SB.Idx → EReal)
    (o c : Fin 4096) : corrected W A B (ix2 o c) = Cert.Spec.eff W A B o c := by
  unfold corrected Cert.Spec.eff Cert.Spec.two
  rw [addf_apply, mulf_apply, dot_apply]
  rfl

/-- The row sums of the squares, from the zero word: at o it is Spec's sum of squares of row o. -/
theorem rowsum_apply (W : Cert.Spec.SW.Idx → EReal) (A : Cert.Spec.SA.Idx → EReal) (B : Cert.Spec.SB.Idx → EReal)
    (o : Fin 4096) :
    Host.reduceAdd (F := Ideal) (φ := .f32) (mulf (corrected W A B) (corrected W A B))
        (constant (F := Ideal) S_ .f32 0x00000000#32) reducesTo_S4096x4096_S4096_d1 h_S_ (ix1 o)
      = Cert.Spec.sumSq W A B o := by
  unfold Cert.Spec.sumSq
  generalize hy : mulf (corrected W A B) (corrected W A B) = y0
  simp only [Host.reduceAdd, Ideal.hostReduceAdd_def]
  rw [Ideal.hostReduceAdd_single reducesTo_S4096x4096_S4096_d1 (by decide)]
  have h0 : (constant (F := Ideal) S_ .f32 0x00000000#32) (Shape.Idx.first h_S_) = 0 := Ideal.ofBits_zero_f32
  rw [h0, zero_add]
  refine Finset.sum_congr rfl fun k _ => ?_
  -- the index with k inserted on the column axis is (o, k)
  refine (congrArg y0 (funext fun a => Fin.ext (by match a with | ⟨0, _⟩ => rfl | ⟨1, _⟩ => rfl)) :
    y0 _ = y0 (ix2 o k)).trans ?_
  subst hy
  exact (mulf_apply _ _ _).trans (congrArg₂ (· * ·) (corrected_apply W A B o k) (corrected_apply W A B o k))

/-- A "differs from" comparison bit that is 1: the two extended reals differ. -/
theorem ne_of_une (x y : EReal) (h : Ideal.cmp .une x y = 1#1) : x ≠ y := by
  unfold Ideal.cmp at h
  by_contra hxy
  simp [hxy] at h

/-! ## The precondition decoded -/

theorem of_pre (x : Cert.Spec.SX3.Idx → EReal) (W : Cert.Spec.SW.Idx → EReal) (A : Cert.Spec.SA.Idx → EReal)
    (B : Cert.Spec.SB.Idx → EReal) (G : Cert.Spec.SG.Idx → EReal)
    (h : Cert.Pre_finite_inputs.fn (F := Ideal) x W A B G = fun _ => 1#1) :
    Cert.Spec.AllReal x ∧ Cert.Spec.AllReal W ∧ Cert.Spec.AllReal A ∧ Cert.Spec.AllReal B ∧ Cert.Spec.AllReal G
      ∧ ∀ o : Fin 4096, Cert.Spec.len W A B o ≠ 0 := by
  have e := congrFun h ix0
  dsimp only [Cert.Pre_finite_inputs.fn, Cert.Pre_finite_inputs.fn_part1, Cert.Pre_finite_inputs.fn_part2] at e
  -- the outermost conjunction: the five finiteness tests' chain, and the row-length test
  obtain ⟨e5, e6⟩ := IntOp.andi_eq_one.1 e
  obtain ⟨e4, eG⟩ := IntOp.andi_eq_one.1 e5
  obtain ⟨e3, eB⟩ := IntOp.andi_eq_one.1 e4
  obtain ⟨e2, eA⟩ := IntOp.andi_eq_one.1 e3
  obtain ⟨ex, eW⟩ := IntOp.andi_eq_one.1 e2
  refine ⟨allReal_of_test x _ _ _ ex, allReal_of_test W _ _ _ eW, allReal_of_test A _ _ _ eA,
    allReal_of_test B _ _ _ eB, allReal_of_test G _ _ _ eG, fun o => ?_⟩
  -- the row-length test at o
  have eo := Host.reduce_andi_all _ _ _ _ ix0 e6 (ix1 o)
  have hne := ne_of_une _ _ eo
  have hs := rowsum_apply W A B o
  unfold Cert.Spec.len
  rw [← hs]
  intro h0
  exact hne (h0.trans Ideal.ofBits_zero_f32.symm)

end Cert.Domain

end
-- ==== Proof.Bridge.lean ====
/-
  The two programs end with the same array.

  The kernel program is to end with the fused arrangement of every input row (its run is taken here as a
  hypothesis: it is proved elsewhere); the reference program ends, operation by operation, with the split
  arrangement of the same rows. The precondition makes every entry of the five arrays a real number and every row
  of the corrected matrix of nonzero length, and under exactly those conditions the two arrangements are the same
  number. So, from memories that agree on the arguments, both programs run, end with equal results, and leave their
  arguments unchanged.

  Beside it: each program runs and leaves its arguments unchanged (the three frames), and the idealized kernel is the
  kernel's own text read over the extended reals (nothing was rewritten, so there is nothing to preserve).
-/
import proofs.«127442_j64811056496880_2_alg».proof.Defs
import proofs.«127442_j64811056496880_2_alg».proof.Proof.KernelResult
import proofs.«127442_j64811056496880_2_alg».proof.Proof.RefSide
import proofs.«127442_j64811056496880_2_alg».proof.Proof.Law
import proofs.«127442_j64811056496880_2_alg».proof.Proof.Domain
import proofs.«127442_j64811056496880_2_alg».proof.Proof.Gen.ReferenceIdeal.Read
import proofs.«127442_j64811056496880_2_alg».proof.Proof.Gen.Pre_finite_inputs
import proofs.«127442_j64811056496880_2_alg».proof.Proof.Gen.KernelIdeal
import proofs.«127442_j64811056496880_2_alg».proof.Proof.Gen.ReferenceIdeal
import proofs.«127442_j64811056496880_2_alg».proof.Proof.Gen.Kernel.Frame
import proofs.«127442_j64811056496880_2_alg».proof.Proof.Gen.KernelIdeal.Frame

noncomputable section

namespace Cert.Bridge

open Idealize.ShloMosaic Idealize.SL.Sem Idealize.ShloMosaic.ValueIdx

/-! ## Equal results -/

/-- At (b, s, o) the reference's split arrangement of the input row (b, s) is the fused arrangement the kernel is to
    end with, when the precondition holds of the five arrays. -/
theorem split_eq_result [hP : Cert.Pre_finite_inputs.Facts]
    (x : Cert.Spec.SX3.Idx → EReal) (W : Cert.Spec.SW.Idx → EReal) (A : Cert.Spec.SA.Idx → EReal)
    (B : Cert.Spec.SB.Idx → EReal) (G : Cert.Spec.SG.Idx → EReal)
    (hpre : Cert.Pre_finite_inputs.fn (F := Ideal) x W A B G = fun _ => 1#1) (b : Fin 4) (s : Fin 2048) (o : Fin 4096) :
    Cert.Spec.split (fun i => x (ix3 b s i)) W A B G o = Cert.Spec.fused (fun i => x (ix3 b s i)) W A B G o := by
  obtain ⟨hx, hW, hA, hB, hG, hlen⟩ := Cert.Domain.of_pre x W A B G hpre
  exact (Cert.Law.fused_eq_split _ W A B G o (fun i => hx (ix3 b s i)) hW hA hB hG (hlen o)).symm

/-- Given the kernel program's run — it terminates with the fused arrangement in its result array and its arguments
    unchanged —, the two programs, from memories agreeing on the arguments, end with equal results. -/
theorem algebraic_of_run [hK : Cert.KernelIdeal.Facts] [hR : Cert.ReferenceIdeal.Facts] [hP : Cert.Pre_finite_inputs.Facts]
    (hrun : ∀ (m : (ℓ : Loc Cert.KernelIdeal.nD Cert.KernelIdeal.τ Cert.KernelIdeal.sig) → Buf (Elt Ideal) ℓ) (g : Dev Cert.KernelIdeal.nD → PrngReg),
        θ_run (Cert.KernelIdeal.defs (F := Ideal)) (onTc (τ := Cert.KernelIdeal.τ) (Cert.KernelIdeal.main (F := Ideal))) ⟨m, fun _ => 0, g⟩ (fun r => ∀ c : Dev Cert.KernelIdeal.nD,
            r.2.mem ((c.tc : Thread Cert.KernelIdeal.nD Cert.KernelIdeal.τ).loc Cert.KernelIdeal.main_v3) = Cert.KernelIdeal.Result.result m c
            ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
            ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
            ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
            ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
            ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))) :
    Cert.algebraic_KernelIdeal_ReferenceIdeal := by
  intro m g m' g' hpre hagree
  refine ⟨fun c => Cert.KernelIdeal.Result.result m c, hrun m g, ?_⟩
  refine (θ_run Cert.ReferenceIdeal.defs _ _).mono (fun _ h c => ⟨(h c).1.trans ?_, (h c).2⟩)
    (Cert.ReferenceIdeal.Value.run (F := Ideal) m' g')
  -- the reference's composed term is its last stage; its arguments are the kernel's
  refine (Cert.ReferenceIdeal.Read.val_main_v19_eq (F := Ideal) _ _ _ _ _).trans ?_
  rw [(hagree c).1, (hagree c).2.1, (hagree c).2.2.1, (hagree c).2.2.2.1, (hagree c).2.2.2.2]
  -- index by index: split on the reference's side, fused on the kernel's
  refine funext fun (j : Cert.Spec.SX3.Idx) => ?_
  obtain ⟨b, s, o, rfl⟩ : ∃ (b : Fin 4) (s : Fin 2048) (o : Fin 4096), j = ix3 b s o := ⟨j 0, j 1, j 2, eq_ix3 j⟩
  refine (Cert.RefSide.result_apply _ _ _ _ _ b s o).trans ?_
  exact split_eq_result _ _ _ _ _ (hpre c) b s o

/-! ## The frames, and the idealization -/

/-- The kernel program runs and leaves its arguments unchanged. -/
theorem frame_Kernel [hK : Cert.Kernel.Facts] [hP : Cert.Pre_finite_inputs.Facts] : Cert.frame_Kernel :=
  fun m ρ _ => Cert.Kernel.Gen.frame m ρ

/-- The idealized kernel program runs and leaves its arguments unchanged. -/
theorem frame_KernelIdeal [hK : Cert.KernelIdeal.Facts] [hP : Cert.Pre_finite_inputs.Facts] : Cert.frame_KernelIdeal :=
  fun m ρ _ => Cert.KernelIdeal.Gen.frame m ρ

/-- The reference program runs and leaves its arguments unchanged. -/
theorem frame_ReferenceIdeal [hR : Cert.ReferenceIdeal.Facts] [hP : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

end Cert.Bridge

end
-- ==== Proof.KernelPieces.lean ====
/-
  What one grid point leaves behind, as pure values.

  At a point where the second grid coordinate is zero the body rebuilds two carried buffers from the point's blocks
  of W, B, A and g — a 512-row tile of the corrected matrix E and the matching 512 entries of the gain row g / |E| —
  and then multiplies the point's block of input rows against that tile, rescaling each column by its gain. At every
  other point it does only the second half, on whatever the two buffers already hold. Each buffer ends holding the
  value of the one store that covers it, and a buffer read after it was stored holds the value stored.
-/
import proofs.«127442_j64811056496880_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Where the second grid coordinate is zero, the carried tile buffer ends holding the corrected tile of the point's
    blocks of W, B and A. -/
theorem tile_rebuilt (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S512x16 .f32) (harg4 : arg4.IsWhole) (arg5 : Memref sig .tc .vmem S16x4096 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x4096 .f32) (harg8 : arg8.IsWhole) (arg9 : Memref sig .tc .vmem S1x512 .f32) (harg9 : arg9.IsWhole) (hc0 : cond0_0 i) (x0 : Vec F S512x4096 .f32) (x1 : Vec F S512x4096 .f32) (x2 : Vec F S512x16 .f32) (x3 : Vec F S16x4096 .f32) (x4 : Vec F S1x512 .f32) :
    sout0_A_0 c i arg2 harg2 arg3 harg3 arg4 harg4 arg5 harg5 arg6 harg6 arg7 harg7 arg8 harg8 arg9 harg9 hc0 x0 x1 x2 x3 x4 = k0_pay3 x1 x2 x3 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg3.read_unread, harg4.read_unread, harg5.read_unread,
    View.ld_unit_zero (S := S512x4096) hz, View.ld_unit_zero (S := S512x16) hz, View.ld_unit_zero (S := S16x4096) hz]

/-- There the carried gain buffer ends holding the gain row of the point's blocks of W, B, A and g. -/
theorem gain_rebuilt (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S512x16 .f32) (harg4 : arg4.IsWhole) (arg5 : Memref sig .tc .vmem S16x4096 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x4096 .f32) (harg8 : arg8.IsWhole) (arg9 : Memref sig .tc .vmem S1x512 .f32) (harg9 : arg9.IsWhole) (hc0 : cond0_0 i) (x0 : Vec F S512x4096 .f32) (x1 : Vec F S512x4096 .f32) (x2 : Vec F S512x16 .f32) (x3 : Vec F S16x4096 .f32) (x4 : Vec F S1x512 .f32) :
    sout0_A_1 c i arg2 harg2 arg3 harg3 arg4 harg4 arg5 harg5 arg6 harg6 arg7 harg7 arg8 harg8 arg9 harg9 hc0 x0 x1 x2 x3 x4 = k0_pay2 x1 x2 x3 x4 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg3.read_unread, harg4.read_unread, harg5.read_unread, harg6.read_unread,
    View.ld_unit_zero (S := S512x4096) hz, View.ld_unit_zero (S := S512x16) hz, View.ld_unit_zero (S := S16x4096) hz,
    View.ld_unit_zero (S := S1x512) hz]

/-- There the output block is the rescaled product of the input rows with the tile and gain row just rebuilt. -/
theorem out_rebuilt (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S512x16 .f32) (harg4 : arg4.IsWhole) (arg5 : Memref sig .tc .vmem S16x4096 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x4096 .f32) (harg8 : arg8.IsWhole) (arg9 : Memref sig .tc .vmem S1x512 .f32) (harg9 : arg9.IsWhole) (hc0 : cond0_0 i) (x0 : Vec F S512x4096 .f32) (x1 : Vec F S512x4096 .f32) (x2 : Vec F S512x16 .f32) (x3 : Vec F S16x4096 .f32) (x4 : Vec F S1x512 .f32) :
    out0_A_5 c i arg2 harg2 arg3 harg3 arg4 harg4 arg5 harg5 arg6 harg6 arg7 harg7 arg8 harg8 arg9 harg9 hc0 x0 x1 x2 x3 x4 = k0_pay4 x0 (k0_pay3 x1 x2 x3) (k0_pay2 x1 x2 x3 x4) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz, View.readCov_unit_zero (S := S512x4096) _ hz, View.readCov_unit_zero (S := S1x512) _ hz]
  simp only [View.readAt_eq_ld, harg2.read_unread, harg3.read_unread, harg4.read_unread, harg5.read_unread, harg6.read_unread,
    View.ld_unit_zero (S := S512x4096) hz, View.ld_unit_zero (S := S512x16) hz, View.ld_unit_zero (S := S16x4096) hz,
    View.ld_unit_zero (S := S1x512) hz]

/-- Elsewhere the output block is the rescaled product of the input rows with what the two buffers hold. -/
theorem out_carried (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S512x16 .f32) (harg4 : arg4.IsWhole) (arg5 : Memref sig .tc .vmem S16x4096 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x4096 .f32) (harg8 : arg8.IsWhole) (arg9 : Memref sig .tc .vmem S1x512 .f32) (harg9 : arg9.IsWhole) (hc0 : ¬cond0_0 i) (x0 : Vec F S512x4096 .f32) (x1 : Vec F S512x4096 .f32) (x2 : Vec F S512x16 .f32) (x3 : Vec F S16x4096 .f32) (x4 : Vec F S1x512 .f32) (xs0 : Vec F S512x4096 .f32) (xs1 : Vec F S1x512 .f32) :
    out0_B_5 c i arg2 harg2 arg3 harg3 arg4 harg4 arg5 harg5 arg6 harg6 arg7 harg7 arg8 harg8 arg9 harg9 hc0 x0 x1 x2 x3 x4 xs0 xs1 = k0_pay4 x0 xs0 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  rw [View.canon_unit_zero hz]
  simp only [View.readAt_eq_ld, harg2.read_unread, harg8.read_unread, harg9.read_unread,
    View.ld_unit_zero (S := S512x4096) hz, View.ld_unit_zero (S := S1x512) hz]

end Cert.KernelIdeal.Pieces

end
-- ==== Proof.KernelPayload.lean ====
/-
  The body's arithmetic read at one entry, on the extended reals.

  The tile of the corrected matrix at (p, i) is  w p i + 2 * (sum over r of b p r * a r i);  the gain row at q is
  g q / sqrt (sum over i of the square of the tile's entry (q, i));  the output block at (p, q) is
  (sum over i of x p i * tile q i) * gain q  — the input rows against the ROWS of the tile, so the product contracts
  the last axis of both factors.
-/
import proofs.«127442_j64811056496880_2_alg».proof.Proof.Gen.KernelIdeal.Skeleton
import proofs.«127442_j64811056496880_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The thin product b a, 512 x 16 times 16 x 4096 -/

theorem thin_lhs_0 (j : S512x4096.Idx) (q : dot_S512x16_S16x4096_S512x4096_1_0_0_1_n_n.contr.Idx) : (dot_S512x16_S16x4096_S512x4096_1_0_0_1_n_n.lhsIdx j q 0).val = (j 0).val := by
  unfold DotDims.lhsIdx
  rw [dif_neg (show ¬(0 : Fin S512x16.rank) ∈ dot_S512x16_S16x4096_S512x4096_1_0_0_1_n_n.lhsBatch by decide), dif_pos (show (0 : Fin S512x16.rank) ∈ dot_S512x16_S16x4096_S512x4096_1_0_0_1_n_n.lhsNonContracting by decide)]
  rfl
theorem thin_lhs_1 (j : S512x4096.Idx) (q : dot_S512x16_S16x4096_S512x4096_1_0_0_1_n_n.contr.Idx) : (dot_S512x16_S16x4096_S512x4096_1_0_0_1_n_n.lhsIdx j q 1).val = (q ⟨0, by decide⟩).val :=
  dot_S512x16_S16x4096_S512x4096_1_0_0_1_n_n.lhsIdx_val_of_single rfl j q
theorem thin_rhs_0 (j : S512x4096.Idx) (q : dot_S512x16_S16x4096_S512x4096_1_0_0_1_n_n.contr.Idx) : (dot_S512x16_S16x4096_S512x4096_1_0_0_1_n_n.rhsIdx j q 0).val = (q ⟨0, by decide⟩).val :=
  dot_S512x16_S16x4096_S512x4096_1_0_0_1_n_n.rhsIdx_val_of_single rfl j q
theorem thin_rhs_1 (j : S512x4096.Idx) (q : dot_S512x16_S16x4096_S512x4096_1_0_0_1_n_n.contr.Idx) : (dot_S512x16_S16x4096_S512x4096_1_0_0_1_n_n.rhsIdx j q 1).val = (j 1).val := by
  unfold DotDims.rhsIdx
  rw [dif_neg (show ¬(1 : Fin S16x4096.rank) ∈ dot_S512x16_S16x4096_S512x4096_1_0_0_1_n_n.rhsBatch by decide), dif_pos (show (1 : Fin S16x4096.rank) ∈ dot_S512x16_S16x4096_S512x4096_1_0_0_1_n_n.rhsNonContracting by decide)]
  rfl

/-- Entry (p, i) of b a, accumulated from zero, is the sum over the 16 inner indices. -/
theorem thin_apply (b : FVec Ideal S512x16 .f32) (a : FVec Ideal S16x4096 .f32) (p : Fin 512) (i : Fin 4096) :
    matmul dot_S512x16_S16x4096_S512x4096_1_0_0_1_n_n (some .fp32) b a (constant (F := Ideal) S512x4096 .f32 0x00000000#32) (ix2 p i)
      = ∑ r : Fin 16, b (ix2 p r) * a (ix2 r i) := by
  refine (Ideal.matmul_constant_zero_apply dot_S512x16_S16x4096_S512x4096_1_0_0_1_n_n (some .fp32) b a (ix2 p i)).trans ?_
  rw [← Equiv.sum_comp (contrEquiv1 dot_S512x16_S16x4096_S512x4096_1_0_0_1_n_n 16 rfl rfl).symm]
  refine Finset.sum_congr rfl fun k _ => ?_
  have hk := contrEquiv1_symm_val dot_S512x16_S16x4096_S512x4096_1_0_0_1_n_n 16 rfl rfl k
  have el : dot_S512x16_S16x4096_S512x4096_1_0_0_1_n_n.lhsIdx (ix2 p i) ((contrEquiv1 dot_S512x16_S16x4096_S512x4096_1_0_0_1_n_n 16 rfl rfl).symm k) = ix2 p k := funext fun c => Fin.ext (by
    match c with
    | ⟨0, _⟩ => exact thin_lhs_0 _ _
    | ⟨1, _⟩ => exact (thin_lhs_1 _ _).trans hk)
  have er : dot_S512x16_S16x4096_S512x4096_1_0_0_1_n_n.rhsIdx (ix2 p i) ((contrEquiv1 dot_S512x16_S16x4096_S512x4096_1_0_0_1_n_n 16 rfl rfl).symm k) = ix2 k i := funext fun c => Fin.ext (by
    match c with
    | ⟨0, _⟩ => exact (thin_rhs_0 _ _).trans hk
    | ⟨1, _⟩ => exact thin_rhs_1 _ _)
  rw [el, er]

/-! ## The main product, rows against rows: 512 x 4096 with 512 x 4096 -/

theorem rows_lhs_0 (j : S512x512.Idx) (q : dot_S512x4096_S512x4096_S512x512_1_1_0_0_n_n.contr.Idx) : (dot_S512x4096_S512x4096_S512x512_1_1_0_0_n_n.lhsIdx j q 0).val = (j 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem rows_lhs_1 (j : S512x512.Idx) (q : dot_S512x4096_S512x4096_S512x512_1_1_0_0_n_n.contr.Idx) : (dot_S512x4096_S512x4096_S512x512_1_1_0_0_n_n.lhsIdx j q 1).val = (q ⟨0, by decide⟩).val :=
  dot_S512x4096_S512x4096_S512x512_1_1_0_0_n_n.lhsIdx_val_of_single rfl j q
theorem rows_rhs_0 (j : S512x512.Idx) (q : dot_S512x4096_S512x4096_S512x512_1_1_0_0_n_n.contr.Idx) : (dot_S512x4096_S512x4096_S512x512_1_1_0_0_n_n.rhsIdx j q 0).val = (j 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rows_rhs_1 (j : S512x512.Idx) (q : dot_S512x4096_S512x4096_S512x512_1_1_0_0_n_n.contr.Idx) : (dot_S512x4096_S512x4096_S512x512_1_1_0_0_n_n.rhsIdx j q 1).val = (q ⟨0, by decide⟩).val :=
  dot_S512x4096_S512x4096_S512x512_1_1_0_0_n_n.rhsIdx_val_of_single rfl j q

/-- Entry (p, q) of the rows-against-rows product, accumulated from zero. -/
theorem rows_apply (x : FVec Ideal S512x4096 .f32) (wf : FVec Ideal S512x4096 .f32) (p : Fin 512) (q : Fin 512) :
    matmul dot_S512x4096_S512x4096_S512x512_1_1_0_0_n_n (some .fp32) x wf (constant (F := Ideal) S512x512 .f32 0x00000000#32) (ix2 p q)
      = ∑ i : Fin 4096, x (ix2 p i) * wf (ix2 q i) := by
  refine (Ideal.matmul_constant_zero_apply dot_S512x4096_S512x4096_S512x512_1_1_0_0_n_n (some .fp32) x wf (ix2 p q)).trans ?_
  rw [← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q) ((contrEquiv1 dot_S512x4096_S512x4096_S512x512_1_1_0_0_n_n 4096 rfl rfl).symm k) = ix2 p k := funext fun c => Fin.ext (by
    match c with
    | ⟨0, _⟩ => exact rows_lhs_0 _ _
    | ⟨1, _⟩ => exact (rows_lhs_1 _ _).trans hk)
  have er : dot_S512x4096_S512x4096_S512x512_1_1_0_0_n_n.rhsIdx (ix2 p q) ((contrEquiv1 dot_S512x4096_S512x4096_S512x512_1_1_0_0_n_n 4096 rfl rfl).symm k) = ix2 q k := funext fun c => Fin.ext (by
    match c with
    | ⟨0, _⟩ => exact rows_rhs_0 _ _
    | ⟨1, _⟩ => exact (rows_rhs_1 _ _).trans hk)
  rw [el, er]

/-! ## The four stored values at an entry -/

/-- The corrected tile at (p, i). -/
theorem tile_apply (w : FVec Ideal S512x4096 .f32) (b : FVec Ideal S512x16 .f32) (a : FVec Ideal S16x4096 .f32)
    (p : Fin 512) (i : Fin 4096) :
    k0_pay1 (F := Ideal) w b a (ix2 p i) = w (ix2 p i) + Cert.Spec.two * ∑ r : Fin 16, b (ix2 p r) * a (ix2 r i) := by
  unfold k0_pay1
  exact congrArg (fun z => w (ix2 p i) + Cert.Spec.two * z) (thin_apply b a p i)

/-- What is stored into the carried tile buffer is the corrected tile. -/
theorem stored_tile (w : FVec Ideal S512x4096 .f32) (b : FVec Ideal S512x16 .f32) (a : FVec Ideal S16x4096 .f32) :
    k0_pay3 (F := Ideal) w b a = k0_pay1 (F := Ideal) w b a := by
  unfold k0_pay3
  exact shapeCast_self _ _

/-- The gain row at q: the prescribed length over the length of row q of the tile. -/
theorem gain_apply (w : FVec Ideal S512x4096 .f32) (b : FVec Ideal S512x16 .f32) (a : FVec Ideal S16x4096 .f32)
    (g : FVec Ideal S1x512 .f32) (u : Fin 1) (q : Fin 512) :
    k0_pay2 (F := Ideal) w b a g (ix2 u q)
      = Ideal.div (g (ix2 u q))
          (Ideal.sqrt (∑ i : Fin 4096, k0_pay1 (F := Ideal) w b a (ix2 q i) * k0_pay1 (F := Ideal) w b a (ix2 q i))) := by
  have hu : u.val = 0 := by omega
  unfold k0_pay2
  rw [shapeCast_self]
  refine congrArg₂ Ideal.div (congrFun (shapeCast_self _ _) _) ?_
  refine (transpose_apply _ _ _ (ix2 u q) (ix2 q u) (fun c => by match c with | ⟨0, _⟩ => rfl | ⟨1, _⟩ => rfl)).trans ?_
  refine congrArg Ideal.sqrt ?_
  refine (shapeCast_apply _ _ (ix2 q u) (ix1 q) (by
    rw [Shape.rowMajor_val_one, Shape.rowMajor_val_two]
    show q.val = q.val * 1 + u.val
    omega)).trans ?_
  refine (Ideal.multiReduction_add_single _ 0x00000000#32 _ _ _ (ix1 q)).trans ?_
  refine Finset.sum_congr rfl fun k _ => ?_
  -- the entry of row q at the summed coordinate k
  have e : (reduces_S512x4096_S512.lift (ix1 q) k : S512x4096.Idx) = ix2 q k :=
    funext fun c => Fin.ext (by match c with | ⟨0, _⟩ => rfl | ⟨1, _⟩ => rfl)
  show k0_pay1 (F := Ideal) w b a (reduces_S512x4096_S512.lift (ix1 q) k)
      * k0_pay1 (F := Ideal) w b a (reduces_S512x4096_S512.lift (ix1 q) k) = _
  rw [e]
  rfl

/-- The output block at (p, q): the input row p against row q of the tile, times the gain at q. -/
theorem out_apply (x : FVec Ideal S512x4096 .f32) (wf : FVec Ideal S512x4096 .f32) (sc : FVec Ideal S1x512 .f32)
    (p : Fin 512) (q : Fin 512) :
    k0_pay4 (F := Ideal) x wf sc (ix2 p q) = (∑ i : Fin 4096, x (ix2 p i) * wf (ix2 q i)) * sc (ix2 (0 : Fin 1) q) := by
  unfold k0_pay4
  rw [shapeCast_self]
  refine congrArg₂ (· * ·) (rows_apply x wf p q) ?_
  exact broadcastTo_apply _ _ (ix2 p q) (ix2 (0 : Fin 1) q) (fun c => by match c with | ⟨0, _⟩ => rfl | ⟨1, _⟩ => rfl)

end Cert.KernelIdeal.Payload

end
-- ==== Proof.KernelTiles.lean ====
/-
  Tiles of the layer's functions, and the body's stored values as those tiles.

  Row q * 512 + p of the corrected matrix is row p of its q-th tile of 512 rows; the matrix has 8 such tiles and the
  input 16 tiles of 512 rows. If the blocks a point loads are the matching tiles of W, B, g (and all of A), the tile
  the body stores is the tile of E, the gain row it stores is the tile of g / |E|, and the block it writes is the
  tile of the fused arrangement.
-/
import proofs.«127442_j64811056496880_2_alg».proof.Proof.KernelPayload

noncomputable section

open scoped BigOperators

namespace Cert.KernelIdeal.Tiles

open Cert.KernelIdeal Cert.KernelIdeal.Gen Idealize.ShloMosaic Idealize.ShloMosaic.ValueIdx Cert.Spec

/-- Row p of the q-th tile of 512 rows, among 4096 rows (q < 8). -/
def rowW (q : ℕ) (p : Fin 512) : Fin 4096 := ⟨(q * 512 + p.val) % 4096, Nat.mod_lt _ (by norm_num)⟩
/-- Row p of the q-th tile of 512 rows, among 8192 rows (q < 16). -/
def rowX (q : ℕ) (p : Fin 512) : Fin 8192 := ⟨(q * 512 + p.val) % 8192, Nat.mod_lt _ (by norm_num)⟩

theorem rowW_val (q : ℕ) (hq : q < 8) (p : Fin 512) : (rowW q p).val = q * 512 + p.val := by
  have := p.isLt
  show (q * 512 + p.val) % 4096 = _
  exact Nat.mod_eq_of_lt (by omega)
theorem rowX_val (q : ℕ) (hq : q < 16) (p : Fin 512) : (rowX q p).val = q * 512 + p.val := by
  have := p.isLt
  show (q * 512 + p.val) % 8192 = _
  exact Nat.mod_eq_of_lt (by omega)

/-- The prescribed lengths, given as a one-row array, as a vector. -/
def flat (Gr : (⟨2, ![1, 4096]⟩ : Shape).Idx → EReal) : SG.Idx → EReal := fun o => Gr (ix2 (0 : Fin 1) (o 0))

/-- The q-th tile of the corrected matrix. -/
def tileE (W : SW.Idx → EReal) (A : SA.Idx → EReal) (B : SB.Idx → EReal) (q : ℕ) : FVec Ideal S512x4096 .f32 :=
  fun y => eff W A B (rowW q (y 0)) (y 1)
/-- The q-th tile of the gain row. -/
def tileG (W : SW.Idx → EReal) (A : SA.Idx → EReal) (B : SB.Idx → EReal) (G : SG.Idx → EReal) (q : ℕ) : FVec Ideal S1x512 .f32 :=
  fun y => gain W A B G (rowW q (y 1))
/-- The whole output, 8192 rows by 4096 features, in the fused arrangement. -/
def whole (X : SX2.Idx → EReal) (W : SW.Idx → EReal) (A : SA.Idx → EReal) (B : SB.Idx → EReal) (G : SG.Idx → EReal) :
    SX2.Idx → EReal := fun j => fused (fun i => X (ix2 (j 0) i)) W A B G (j 1)

/-- The tile the body stores is the tile of E, when its three blocks are the matching tiles of W, B and all of A. -/
theorem stored_is_tileE (W : SW.Idx → EReal) (A : SA.Idx → EReal) (B : SB.Idx → EReal) (q : ℕ)
    (x1 : FVec Ideal S512x4096 .f32) (x2 : FVec Ideal S512x16 .f32) (x3 : FVec Ideal S16x4096 .f32)
    (h1 : ∀ (p : Fin 512) (i : Fin 4096), x1 (ix2 p i) = W (ix2 (rowW q p) i))
    (h2 : ∀ (p : Fin 512) (r : Fin 16), x2 (ix2 p r) = B (ix2 (rowW q p) r))
    (h3 : ∀ (r : Fin 16) (i : Fin 4096), x3 (ix2 r i) = A (ix2 r i)) :
    k0_pay3 (F := Ideal) x1 x2 x3 = tileE W A B q := by
  rw [Payload.stored_tile]
  funext y
  obtain ⟨p, i, rfl⟩ : ∃ (p : Fin 512) (i : Fin 4096), y = ix2 p i := ⟨y 0, y 1, eq_ix2 y⟩
  rw [Payload.tile_apply, h1]
  show _ = eff W A B (rowW q p) i
  unfold eff
  exact congrArg (fun z => W (ix2 (rowW q p) i) + two * z) (Finset.sum_congr rfl fun r _ => by rw [h2, h3])

/-- The corrected tile of such blocks at an entry, without the reshaping that precedes its store. -/
theorem tile_entry (W : SW.Idx → EReal) (A : SA.Idx → EReal) (B : SB.Idx → EReal) (q : ℕ)
    (x1 : FVec Ideal S512x4096 .f32) (x2 : FVec Ideal S512x16 .f32) (x3 : FVec Ideal S16x4096 .f32)
    (h1 : ∀ (p : Fin 512) (i : Fin 4096), x1 (ix2 p i) = W (ix2 (rowW q p) i))
    (h2 : ∀ (p : Fin 512) (r : Fin 16), x2 (ix2 p r) = B (ix2 (rowW q p) r))
    (h3 : ∀ (r : Fin 16) (i : Fin 4096), x3 (ix2 r i) = A (ix2 r i)) (p : Fin 512) (i : Fin 4096) :
    k0_pay1 (F := Ideal) x1 x2 x3 (ix2 p i) = eff W A B (rowW q p) i := by
  have h := congrFun (stored_is_tileE W A B q x1 x2 x3 h1 h2 h3) (ix2 p i)
  rw [Payload.stored_tile] at h
  exact h

/-- The gain row the body stores is the tile of g / |E|, when moreover its block of g is the matching tile. -/
theorem stored_is_tileG (W : SW.Idx → EReal) (A : SA.Idx → EReal) (B : SB.Idx → EReal) (G : SG.Idx → EReal) (q : ℕ)
    (x1 : FVec Ideal S512x4096 .f32) (x2 : FVec Ideal S512x16 .f32) (x3 : FVec Ideal S16x4096 .f32) (x4 : FVec Ideal S1x512 .f32)
    (h1 : ∀ (p : Fin 512) (i : Fin 4096), x1 (ix2 p i) = W (ix2 (rowW q p) i))
    (h2 : ∀ (p : Fin 512) (r : Fin 16), x2 (ix2 p r) = B (ix2 (rowW q p) r))
    (h3 : ∀ (r : Fin 16) (i : Fin 4096), x3 (ix2 r i) = A (ix2 r i))
    (h4 : ∀ (u : Fin 1) (p : Fin 512), x4 (ix2 u p) = G (ix1 (rowW q p))) :
    k0_pay2 (F := Ideal) x1 x2 x3 x4 = tileG W A B G q := by
  funext y
  obtain ⟨u, p, rfl⟩ : ∃ (u : Fin 1) (p : Fin 512), y = ix2 u p := ⟨y 0, y 1, eq_ix2 y⟩
  rw [Payload.gain_apply, h4]
  show _ = gain W A B G (rowW q p)
  unfold gain len sumSq
  exact congrArg (fun z => Ideal.div (G (ix1 (rowW q p))) (Ideal.sqrt z))
    (Finset.sum_congr rfl fun i _ => by rw [tile_entry W A B q x1 x2 x3 h1 h2 h3 p i])

/-- The block the body writes is the tile of the fused arrangement, when its block of input rows is the s-th tile of X
    and the two carried buffers hold the q-th tiles of E and of the gain row. -/
theorem written_is_tile (X : SX2.Idx → EReal) (W : SW.Idx → EReal) (A : SA.Idx → EReal) (B : SB.Idx → EReal) (G : SG.Idx → EReal)
    (s q : ℕ) (x0 : FVec Ideal S512x4096 .f32)
    (h0 : ∀ (p : Fin 512) (i : Fin 4096), x0 (ix2 p i) = X (ix2 (rowX s p) i)) (p : Fin 512) (c : Fin 512) :
    k0_pay4 (F := Ideal) x0 (tileE W A B q) (tileG W A B G q) (ix2 p c) = whole X W A B G (ix2 (rowX s p) (rowW q c)) := by
  rw [Payload.out_apply]
  show _ = fused (fun i => X (ix2 (rowX s p) i)) W A B G (rowW q c)
  unfold fused
  exact congrArg (fun z => z * gain W A B G (rowW q c)) (Finset.sum_congr rfl fun i _ => by rw [h0]; rfl)

end Cert.KernelIdeal.Tiles

end
-- ==== Proof.KernelCover.lean ====
/-
  The output array is the union of its tiles.

  The grid has 128 points t = 16 * n + k, the outer coordinate n = t / 16 running over the 8 column tiles and the
  inner coordinate k = t % 16 over the 16 row tiles.  Point t writes back the 512 x 512 tile of the 8192 x 4096
  output array whose rows are 512 * (t % 16) .. 512 * (t % 16) + 511 and whose columns are
  512 * (t / 16) .. 512 * (t / 16) + 511, and it does so at every point.

  An entry (row, col) of the array lies in the tile of the point t = (col / 512) * 16 + row / 512, which is below
  128 because row < 8192 and col < 4096: for that t, t % 16 = row / 512 and t / 16 = col / 512.  So the tiles cover
  the array, and an array K whose tile at every point is what that point writes back is what the array holds after
  the last point.
-/
import proofs.«127442_j64811056496880_2_alg».proof.Proof.Gen.KernelIdeal.Frame
import Idealize.ShloMosaic.Lib.Pipeline.Value

noncomputable section

namespace Cert.KernelIdeal.Cover

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The tile of point t: its row-tile number is t % 16, its column-tile number t / 16, at each of the 128 points. -/
theorem tile_index : ∀ t : Fin cfg0.N,
    win0_5.index t (0 : Fin 2) = t.val % 16 ∧ win0_5.index t (1 : Fin 2) = t.val / 16 :=
  (by decide +kernel : ∀ t : Fin grid0.N, _)

/-- An entry of the array is in point t's tile iff its row and its column are in the tile's ranges. -/
theorem mem_tile (t : Fin cfg0.N) (i : S8192x4096.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v2).slice (win0_5.rect t)).set ↔ _
  rw [View.set_slice_whole, Rect.mem_set_unit]
  exact Iff.rfl

/-- Every entry (row, col) of the array is in the tile of the point (col / 512) * 16 + row / 512, which writes
    its tile back. -/
theorem tiles_cover (i : S8192x4096.Idx) :
    ∃ t : Fin cfg0.N, (cfg0.win 5).flush t = true ∧ i ∈ ((cfg0.win 5).blk t).view.set := by
  have hN : cfg0.N = 128 := N_0
  have hrow : (i 0).val < 8192 := (i 0).isLt
  have hcol : (i 1).val < 4096 := (i 1).isLt
  have hlt : (i 1).val / 512 * 16 + (i 0).val / 512 < cfg0.N := by rw [hN]; omega
  obtain ⟨t, ht⟩ : ∃ t : Fin cfg0.N, t.val = (i 1).val / 512 * 16 + (i 0).val / 512 := ⟨⟨_, hlt⟩, rfl⟩
  obtain ⟨erow, ecol⟩ := tile_index t
  refine ⟨t, flush0_5 t, ?_⟩
  rw [mem_tile]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 512 ≤ (i 1).val ∧ (i 1).val < win0_5.index t (1 : Fin 2) * 512 + 512
    omega

/-- An array whose tile at every point is what that point writes back is the output array after the last point. -/
theorem array_of_blocks (c : Dev nD) (K : S8192x4096.Idx → Elt F .f32)
    (h : ∀ t : Fin cfg0.N, (dats m 0 c).flushed 5 t = ((cfg0.win 5).blk t).view.read (Elt F) K) :
    (dats m 0 c).arrAt 5 cfg0.N = K :=
  (dats m 0 c).arrAt_eq_of_cover 5 K (fun t _ => h t) tiles_cover

end Cert.KernelIdeal.Cover

end
-- ==== Proof.KernelPoints.lean ====
/-
  The grid, point by point.

  The 128 points run over 8 column tiles (outer) and 16 row tiles (inner): point t works on column tile t / 16 and row
  tile t % 16. Its blocks of W, B and g are the (t / 16)-th tiles of those arrays, its block of A is all of A, its block
  of input rows the (t % 16)-th tile of X. At the first point of each column tile (t % 16 = 0) the body rebuilds the
  two carried buffers from those blocks; at the other fifteen it keeps them, and since t - 1 is then in the same column
  tile, by induction they still hold the (t / 16)-th tiles of E and of the gain row. So every point writes the
  (t % 16, t / 16) tile of the fused arrangement, and the 128 tiles fill the output.
-/
import proofs.«127442_j64811056496880_2_alg».proof.Proof.Gen.KernelIdeal.Frame
import proofs.«127442_j64811056496880_2_alg».proof.Proof.KernelPieces
import proofs.«127442_j64811056496880_2_alg».proof.Proof.KernelTiles
import proofs.«127442_j64811056496880_2_alg».proof.Proof.KernelCover

set_option maxRecDepth 16384

noncomputable section

open Idealize.ShloMosaic Idealize.ShloMosaic.TcCoe Idealize.SL.Sem
open Idealize.ShloMosaic.Pipeline (Dat)

namespace Cert.KernelIdeal.Points

open Cert.KernelIdeal Cert.KernelIdeal.Gen Idealize.ShloMosaic.ValueIdx Cert.Spec Cert.KernelIdeal.Tiles

variable (m : (ℓ : Loc nD τ sig) → Buf (Elt Ideal) ℓ)

/-- The five arrays as the region finds them on core c: the input rows (8192 x 4096), W, A, B, and the prescribed
    lengths as a one-row array. -/
abbrev X2 (c : Dev nD) : SX2.Idx → EReal := V m c main_v0
abbrev Wm (c : Dev nD) : SW.Idx → EReal := V m c main_arg1
abbrev Am (c : Dev nD) : SA.Idx → EReal := V m c main_arg2
abbrev Bm (c : Dev nD) : SB.Idx → EReal := V m c main_arg3
abbrev Gr (c : Dev nD) : (⟨2, ![1, 4096]⟩ : Shape).Idx → EReal := V m c main_v1

/-- Which tile each window's block is, at every point: decided once over the grid. -/
theorem tile_of_point : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val / 16 :=
  (by decide +kernel : ∀ t : Fin grid0.N, _)

theorem point_lt (t : Fin cfg0.N) : t.val < 128 := by
  have hN : cfg0.N = 128 := N_0
  have := t.isLt
  omega

/-- The block of input rows at point t is the (t % 16)-th tile of X. -/
theorem blk0 (c : Dev nD) (t : Fin cfg0.N) (p : Fin 512) (i : Fin 4096) :
    (iblk m c 0 t : FVec Ideal S512x4096 .f32) (ix2 p i) = X2 m c (ix2 (rowX (t.val % 16) p) i) := by
  have ht := point_lt t
  obtain ⟨e0, e1, -⟩ := tile_of_point t
  unfold iblk
  rw [View.read_apply]
  show V m c main_v0 _ = V m c main_v0 _
  congr 1
  funext a
  apply Fin.ext
  match a with
  | ⟨0, _⟩ => show win0_0.index t 0 * 512 + 1 * p.val = (rowX (t.val % 16) p).val
              rw [e0, rowX_val _ (by omega)]; omega
  | ⟨1, _⟩ => show win0_0.index t 1 * 4096 + 1 * i.val = i.val
              rw [e1]; omega

/-- The block of W at point t is the (t / 16)-th tile of W. -/
theorem blk1 (c : Dev nD) (t : Fin cfg0.N) (p : Fin 512) (i : Fin 4096) :
    (iblk m c 1 t : FVec Ideal S512x4096 .f32) (ix2 p i) = Wm m c (ix2 (rowW (t.val / 16) p) i) := by
  have ht := point_lt t
  obtain ⟨-, -, e0, e1, -⟩ := tile_of_point t
  unfold iblk
  rw [View.read_apply]
  show V m c main_arg1 _ = V m c main_arg1 _
  congr 1
  funext a
  apply Fin.ext
  match a with
  | ⟨0, _⟩ => show win0_1.index t 0 * 512 + 1 * p.val = (rowW (t.val / 16) p).val
              rw [e0, rowW_val _ (by omega)]; omega
  | ⟨1, _⟩ => show win0_1.index t 1 * 4096 + 1 * i.val = i.val
              rw [e1]; omega

/-- The block of B at point t is the (t / 16)-th tile of B. -/
theorem blk2 (c : Dev nD) (t : Fin cfg0.N) (p : Fin 512) (r : Fin 16) :
    (iblk m c 2 t : FVec Ideal S512x16 .f32) (ix2 p r) = Bm m c (ix2 (rowW (t.val / 16) p) r) := by
  have ht := point_lt t
  obtain ⟨-, -, -, -, e0, e1, -⟩ := tile_of_point t
  unfold iblk
  rw [View.read_apply]
  show V m c main_arg3 _ = V m c main_arg3 _
  congr 1
  funext a
  apply Fin.ext
  match a with
  | ⟨0, _⟩ => show win0_2.index t 0 * 512 + 1 * p.val = (rowW (t.val / 16) p).val
              rw [e0, rowW_val _ (by omega)]; omega
  | ⟨1, _⟩ => show win0_2.index t 1 * 16 + 1 * r.val = r.val
              rw [e1]; omega

/-- The block of A at every point is all of A. -/
theorem blk3 (c : Dev nD) (t : Fin cfg0.N) (r : Fin 16) (i : Fin 4096) :
    (iblk m c 3 t : FVec Ideal S16x4096 .f32) (ix2 r i) = Am m c (ix2 r i) := by
  obtain ⟨-, -, -, -, -, -, e0, e1, -⟩ := tile_of_point t
  unfold iblk
  rw [View.read_apply]
  show V m c main_arg2 _ = V m c main_arg2 _
  congr 1
  funext a
  apply Fin.ext
  match a with
  | ⟨0, _⟩ => show win0_3.index t 0 * 16 + 1 * r.val = r.val
              rw [e0]; omega
  | ⟨1, _⟩ => show win0_3.index t 1 * 4096 + 1 * i.val = i.val
              rw [e1]; omega

/-- The block of prescribed lengths at point t is the (t / 16)-th tile of them. -/
theorem blk4 (c : Dev nD) (t : Fin cfg0.N) (u : Fin 1) (p : Fin 512) :
    (iblk m c 4 t : FVec Ideal S1x512 .f32) (ix2 u p) = flat (Gr m c) (ix1 (rowW (t.val / 16) p)) := by
  have ht := point_lt t
  have hu : u.val = 0 := by omega
  obtain ⟨-, -, -, -, -, -, -, -, e0, e1⟩ := tile_of_point t
  unfold iblk
  rw [View.read_apply]
  show V m c main_v1 _ = V m c main_v1 (ix2 (0 : Fin 1) (rowW (t.val / 16) p))
  congr 1
  funext a
  apply Fin.ext
  match a with
  | ⟨0, _⟩ => show win0_4.index t 0 * 1 + 1 * u.val = 0
              rw [e0]; omega
  | ⟨1, _⟩ => show win0_4.index t 1 * 512 + 1 * p.val = (rowW (t.val / 16) p).val
              rw [e1, rowW_val _ (by omega)]; omega

/-- After every point the two carried buffers hold the tiles of E and of the gain row of the point's column tile:
    by induction on the point's position. -/
theorem carried_at (c : Dev nD) : ∀ (k : ℕ) (t : Fin cfg0.N), t.val = k →
    (outsAt0 m c t.val t.isLt).2.1 = tileE (Wm m c) (Am m c) (Bm m c) (t.val / 16)
    ∧ (outsAt0 m c t.val t.isLt).2.2 = tileG (Wm m c) (Am m c) (Bm m c) (flat (Gr m c)) (t.val / 16) := by
  intro k
  induction k using Nat.strong_induction_on with
  | _ k ih =>
    intro t hk
    by_cases h0 : t.val % 16 = 0
    · rw [outsAt0_A m c t h0]
      dsimp only
      exact ⟨(Pieces.tile_rebuilt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).trans
          (stored_is_tileE (Wm m c) (Am m c) (Bm m c) (t.val / 16) (iblk m c 1 t) (iblk m c 2 t) (iblk m c 3 t)
            (blk1 m c t) (blk2 m c t) (blk3 m c t)),
        (Pieces.gain_rebuilt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).trans
          (stored_is_tileG (Wm m c) (Am m c) (Bm m c) (flat (Gr m c)) (t.val / 16) (iblk m c 1 t) (iblk m c 2 t) (iblk m c 3 t) (iblk m c 4 t)
            (blk1 m c t) (blk2 m c t) (blk3 m c t) (blk4 m c t))⟩
    · have hlt : t.val - 1 < cfg0.N := Nat.lt_of_le_of_lt (Nat.sub_le _ _) t.isLt
      have hprev := ih (t.val - 1) (by omega) ⟨t.val - 1, hlt⟩ rfl
      have hq : (t.val - 1) / 16 = t.val / 16 := by omega
      dsimp only at hprev
      rw [hq] at hprev
      rw [outsAt0_B m c t h0]
      dsimp only
      unfold sout0_B_0 sout0_B_1
      exact hprev

theorem carried (c : Dev nD) (t : Fin cfg0.N) :
    (outsAt0 m c t.val t.isLt).2.1 = tileE (Wm m c) (Am m c) (Bm m c) (t.val / 16)
    ∧ (outsAt0 m c t.val t.isLt).2.2 = tileG (Wm m c) (Am m c) (Bm m c) (flat (Gr m c)) (t.val / 16) :=
  carried_at m c t.val t rfl

/-- Every point writes, as its output block, the rescaled product of its input rows with those two tiles. -/
theorem written (c : Dev nD) (t : Fin cfg0.N) :
    (outsAt0 m c t.val t.isLt).1
      = k0_pay4 (F := Ideal) (iblk m c 0 t) (tileE (Wm m c) (Am m c) (Bm m c) (t.val / 16)) (tileG (Wm m c) (Am m c) (Bm m c) (flat (Gr m c)) (t.val / 16)) := by
  by_cases h0 : t.val % 16 = 0
  · rw [outsAt0_A m c t h0]
    dsimp only
    refine (Pieces.out_rebuilt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).trans ?_
    exact congrArg₂ (k0_pay4 (F := Ideal) (iblk m c 0 t))
      (stored_is_tileE (Wm m c) (Am m c) (Bm m c) (t.val / 16) (iblk m c 1 t) (iblk m c 2 t) (iblk m c 3 t)
        (blk1 m c t) (blk2 m c t) (blk3 m c t))
      (stored_is_tileG (Wm m c) (Am m c) (Bm m c) (flat (Gr m c)) (t.val / 16) (iblk m c 1 t) (iblk m c 2 t) (iblk m c 3 t) (iblk m c 4 t)
        (blk1 m c t) (blk2 m c t) (blk3 m c t) (blk4 m c t))
  · have hlt : t.val - 1 < cfg0.N := Nat.lt_of_le_of_lt (Nat.sub_le _ _) t.isLt
    have hprev := carried m c ⟨t.val - 1, hlt⟩
    have hq : (t.val - 1) / 16 = t.val / 16 := by omega
    dsimp only at hprev
    rw [hq] at hprev
    rw [outsAt0_B m c t h0]
    dsimp only
    refine (Pieces.out_carried (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2).trans ?_
    exact congrArg₂ (k0_pay4 (F := Ideal) (iblk m c 0 t)) hprev.1 hprev.2

end Cert.KernelIdeal.Points

end
-- ==== Proof.KernelLayout.lean ====
/-
  How the kernel program lays out its arrays around the region.

  Before the region the [4, 2048, 4096] input is recast as 8192 rows of 4096, and the [4096] vector of prescribed
  lengths as one row; after it the region's output array of 8192 rows is recast as [4, 2048, 4096]. A recast keeps
  the row-major position, so row p of the recast input is row (p / 2048, p % 2048) of the input, and entry (b, s, o)
  of the result is entry (b * 2048 + s, o) of the output array.
-/
import proofs.«127442_j64811056496880_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Layout

open Cert.KernelIdeal Cert.KernelIdeal.Gen Idealize.ShloMosaic Idealize.ShloMosaic.TcCoe Idealize.SL.Sem
  Idealize.ShloMosaic.ValueIdx

variable {F : FTy → Type} [FloatOps F] (m : (ℓ : Loc nD τ sig) → Buf (Elt F) ℓ)

/-- The input rows as the region finds them: the [4, 2048, 4096] input recast as 8192 rows. -/
theorem v0_eq (c : Dev nD) :
    (V m c main_v0 : S8192x4096.Idx → Elt F .f32)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The prescribed lengths as the region finds them: the [4096] vector recast as one row. -/
theorem v1_eq (c : Dev nD) :
    (V m c main_v1 : S1x4096.Idx → Elt F .f32)
      = shapeCast S1x4096 (m ((c : Thread nD τ).loc main_arg4)) shapeCasts_S4096_S1x4096 := by
  show StableHlo.after hostOps0 (fun b => m (c, b)) (Proc.devRef .tc main_v1) = _
  after_results
  rfl

/-- Row p of the recast input is row (p / 2048, p % 2048) of the input: same row-major position. -/
theorem rows_in (c : Dev nD) (p : Fin 8192) (i : Fin 4096) :
    V m c main_v0 (ix2 p i) = m ((c : Thread nD τ).loc main_arg0)
      (ix3 (⟨p.val / 2048, by omega⟩ : Fin 4) (⟨p.val % 2048, by omega⟩ : Fin 2048) i) :=
  (congrFun (v0_eq m c) (ix2 p i)).trans (shapeCast_apply _ _ _ _ (by
    show (S4x2048x4096.rowMajor (ix3 (⟨p.val / 2048, by omega⟩ : Fin 4) (⟨p.val % 2048, by omega⟩ : Fin 2048) i)).val
      = (S8192x4096.rowMajor (ix2 p i)).val
    rw [Shape.rowMajor_val_three, Shape.rowMajor_val_two]
    show (p.val / 2048 * 2048 + p.val % 2048) * 4096 + i.val = p.val * 4096 + i.val
    omega))

/-- The one row of the recast lengths is the vector of lengths. -/
theorem lengths_in (c : Dev nD) (u : Fin 1) (o : Fin 4096) :
    V m c main_v1 (ix2 u o) = m ((c : Thread nD τ).loc main_arg4) (ix1 o) :=
  (congrFun (v1_eq m c) (ix2 u o)).trans (shapeCast_a_1a_apply _ _ u o)

/-- The result: the region's output array of 8192 rows recast as [4, 2048, 4096]. -/
theorem v3_eq (c : Dev nD) :
    (Pipeline.afterTail₀ cfgs (dats m) 0 (V0 m) [hostOps1] c main_v3 : S4x2048x4096.Idx → Elt F .f32)
      = shapeCast S4x2048x4096 ((dats m 0 c).arrAt 5 cfg0.N) shapeCasts_S8192x4096_S4x2048x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v2) = (dats m 0 c).arrAt 5 cfg0.N :=
    Pipeline.withArrays_arr spec0 launch0.win.arr_inj c _ _ 5
  rw [e]
  rfl

/-- Entry (b, s, o) of the result is row b * 2048 + s of the region's output array: same row-major position. -/
theorem result_out (c : Dev nD) (b : Fin 4) (s : Fin 2048) (o : Fin 4096) :
    Pipeline.afterTail₀ cfgs (dats m) 0 (V0 m) [hostOps1] c main_v3 (ix3 b s o)
      = (dats m 0 c).arrAt 5 cfg0.N (ix2 (⟨b.val * 2048 + s.val, by omega⟩ : Fin 8192) o) :=
  (congrFun (v3_eq m c) (ix3 b s o)).trans (shapeCast_apply _ _ _ _ (by
    show (S8192x4096.rowMajor (ix2 (⟨b.val * 2048 + s.val, by omega⟩ : Fin 8192) o)).val
      = (S4x2048x4096.rowMajor (ix3 b s o)).val
    rw [Shape.rowMajor_val_three, Shape.rowMajor_val_two]
    rfl))

/-- In every final state the frame run allows, entry (b, s, o) of the result buffer is row b * 2048 + s of the
    region's output array. -/
theorem result_mem (r : PUnit × MemSt nD τ sig (Elt F))
    (h : Pipeline.FramePost cfgs (dats m) 0 (Pipeline.afterTail₀ cfgs (dats m) 0 (V0 m) [hostOps1]) r)
    (c : Dev nD) (b : Fin 4) (s : Fin 2048) (o : Fin 4096) :
    r.2.mem ((c.tc : Thread nD τ).loc main_v3) (ix3 b s o)
      = (dats m 0 c).arrAt 5 cfg0.N (ix2 (⟨b.val * 2048 + s.val, by omega⟩ : Fin 8192) o) :=
  (congrFun ((h c).2 main_v3 (Pipeline.mem_restRefs_of main_v3 (by decide) (by decide))) (ix3 b s o)).trans
    (result_out m c b s o)

end Cert.KernelIdeal.Layout

end
-- ==== Proof.KernelRun.lean ====
/-
  The kernel program's run, read: its result array is the fused arrangement of every input row.

  Point t writes the (t % 16, t / 16) tile of the 8192 x 4096 array  (row, feature) |-> fused arrangement of that row
  at that feature; the 128 tiles fill the array; the program's last step lays its 8192 rows out again as 4 x 2048, row
  b * 2048 + s becoming (b, s), just as its first step laid the 4 x 2048 input rows out as 8192. The five argument
  arrays are never written.
-/
import proofs.«127442_j64811056496880_2_alg».proof.Proof.KernelPoints
import proofs.«127442_j64811056496880_2_alg».proof.Proof.KernelLayout
import proofs.«127442_j64811056496880_2_alg».proof.Proof.KernelResult

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Idealize.ShloMosaic.ValueIdx Cert.Spec Cert.KernelIdeal.Tiles Cert.KernelIdeal.Points

variable (m : (ℓ : Loc nD τ sig) → Buf (Elt Ideal) ℓ) (ρ : Dev nD → PrngReg)

/-- The output as one function of the arrays the region finds. -/
abbrev out2 (c : Dev nD) : SX2.Idx → EReal := whole (X2 m c) (Wm m c) (Am m c) (Bm m c) (flat (Gr m c))

/-- The written block at any of its entries, in the coordinates of the whole array. -/
theorem written_at (X : SX2.Idx → EReal) (W : SW.Idx → EReal) (A : SA.Idx → EReal) (B : SB.Idx → EReal) (G : SG.Idx → EReal)
    (s q : ℕ) (x0 : FVec Ideal S512x4096 .f32)
    (h0 : ∀ (p : Fin 512) (i : Fin 4096), x0 (ix2 p i) = X (ix2 (rowX s p) i)) (y : S512x512.Idx) :
    k0_pay4 (F := Ideal) x0 (tileE W A B q) (tileG W A B G q) y = whole X W A B G (ix2 (rowX s (y 0)) (rowW q (y 1))) := by
  exact (congrArg (k0_pay4 (F := Ideal) x0 (tileE W A B q) (tileG W A B G q)) (eq_ix2 y)).trans
    (written_is_tile X W A B G s q x0 h0 (y 0) (y 1))

/-- What point t writes back is its tile of the output function. -/
theorem flushed_eq (c : Dev nD) (t : Fin cfg0.N) :
    (dats m 0 c).flushed 5 t = ((cfg0.win 5).blk t).view.read (Elt Ideal) (out2 m c) := by
  have ht := point_lt t
  obtain ⟨e0, e1⟩ := Cover.tile_index t
  show (cfg0.win 5).cut (grid0.coords t) ((dats m 0 c).after 5 t) = _
  rw [after0_5, written]
  refine funext fun (y : S512x512.Idx) => ?_
  show k0_pay4 (F := Ideal) (iblk m c 0 t) (tileE (Wm m c) (Am m c) (Bm m c) (t.val / 16))
      (tileG (Wm m c) (Am m c) (Bm m c) (flat (Gr m c)) (t.val / 16)) y = out2 m c (((cfg0.win 5).blk t).view.emb y)
  refine (written_at (X2 m c) (Wm m c) (Am m c) (Bm m c) (flat (Gr m c)) (t.val % 16) (t.val / 16) (iblk m c 0 t)
    (blk0 m c t) y).trans ?_
  refine congrArg (out2 m c) (funext fun a => Fin.ext ?_)
  match a with
  | ⟨0, _⟩ => show (rowX (t.val % 16) (y 0)).val = win0_5.index t 0 * 512 + 1 * (y 0).val
              rw [e0]
              exact (rowX_val (t.val % 16) (by omega) (y 0)).trans (by omega)
  | ⟨1, _⟩ => show (rowW (t.val / 16) (y 1)).val = win0_5.index t 1 * 512 + 1 * (y 1).val
              rw [e1]
              exact (rowW_val (t.val / 16) (by omega) (y 1)).trans (by omega)

/-- So the output array ends holding the output function. -/
theorem array_eq (c : Dev nD) : (dats m 0 c).arrAt 5 cfg0.N = out2 m c :=
  Cover.array_of_blocks m c (out2 m c) (flushed_eq m c)

/-- The result buffer in every final state of the run: the fused arrangement of input row (b, s) at feature o. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v3) = Result.result m c := by
  funext j
  obtain ⟨b, s, o, rfl⟩ : ∃ (b : Fin 4) (s : Fin 2048) (o : Fin 4096), j = ix3 b s o := ⟨j 0, j 1, j 2, eq_ix3 j⟩
  have hb := b.isLt
  have hs := s.isLt
  refine (Layout.result_mem m r h c b s o).trans ?_
  rw [array_eq]
  have hx : (fun i : Fin 4096 => X2 m c (ix2 (⟨b.val * 2048 + s.val, by omega⟩ : Fin 8192) i))
      = fun i => m ((c.tc : Thread nD τ).loc main_arg0) (ix3 b s i) := funext fun i => by
    refine (Layout.rows_in m c ⟨b.val * 2048 + s.val, by omega⟩ i).trans ?_
    refine congrArg (m ((c.tc : Thread nD τ).loc main_arg0)) (funext fun a => Fin.ext ?_)
    match a with
    | ⟨0, _⟩ => show (b.val * 2048 + s.val) / 2048 = b.val; omega
    | ⟨1, _⟩ => show (b.val * 2048 + s.val) % 2048 = s.val; omega
    | ⟨2, _⟩ => rfl
  have hW : Wm m c = m ((c.tc : Thread nD τ).loc main_arg1) := V_main_arg1 m c
  have hA : Am m c = m ((c.tc : Thread nD τ).loc main_arg2) := V_main_arg2 m c
  have hB : Bm m c = m ((c.tc : Thread nD τ).loc main_arg3) := V_main_arg3 m c
  have hG : flat (Gr m c) = m ((c.tc : Thread nD τ).loc main_arg4) := funext fun o' => by
    show Gr m c (ix2 (0 : Fin 1) (o' 0)) = _
    rw [eq_ix1 o']
    exact Layout.lengths_in m c 0 (o' 0)
  show fused (fun i => X2 m c (ix2 (⟨b.val * 2048 + s.val, by omega⟩ : Fin 8192) i)) (Wm m c) (Am m c) (Bm m c) (flat (Gr m c)) o
    = fused (fun i => m ((c.tc : Thread nD τ).loc main_arg0) (ix3 b s i)) (m ((c.tc : Thread nD τ).loc main_arg1))
        (m ((c.tc : Thread nD τ).loc main_arg2)) (m ((c.tc : Thread nD τ).loc main_arg3)) (m ((c.tc : Thread nD τ).loc main_arg4)) o
  rw [hx, hW, hA, hB, hG]

/-- The run: every weakly fair execution ends with the result array at the fused arrangement and the arguments as
    they were. -/
theorem run : θ_run (defs (F := Ideal)) (onTc (τ := τ) (main (F := Ideal))) ⟨m, fun _ => 0, ρ⟩ (fun r => ∀ c : Dev nD,
      r.2.mem ((c.tc : Thread nD τ).loc main_v3) = Result.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨result_eq m r h c,
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c))⟩)
    (run_main m ρ)

end Cert.KernelIdeal.Run

end
-- ==== Proof.lean ====
/- The proof of `Cert.Claim` (proofs.«127442_j64811056496880_2_alg».proof.Defs).

   Both programs compute a linear layer whose weight matrix W is corrected by twice the product of two thin matrices
   B (4096 x 16) and A (16 x 4096), each row of the corrected matrix E = W + 2 (B A) being rescaled to a prescribed
   length g o:   y o = (x . E o) * (g o / |E o|)   for every input row x.

   The kernel program computes exactly that (Proof/KernelRun.lean): over a grid of 8 column tiles by 16 row tiles it
   builds, at the first point of each column tile, the tile of E and the matching entries of g / |E| in two buffers it
   keeps for the other fifteen points, and at every point multiplies a tile of input rows against the tile of E and
   rescales the columns. The reference program computes   (g o / |E o| - 1) * (x . W o) + ((g o / |E o|) * ((x . A^T) . B o)) * 2 + x . W o
   (Proof/RefSide.lean). Over the reals these agree by distributivity (Proof/Law.lean); on the extended reals
   distributivity needs every term finite, which the precondition gives (Proof/Domain.lean): every input entry is a
   real number and no row of E has length zero — where a row of E vanishes the quotient g o / |E o| is an infinity in
   both programs and the two arrangements genuinely differ. Proof/Bridge.lean joins the two runs and holds the frames. -/
import proofs.«127442_j64811056496880_2_alg».proof.Defs
import proofs.«127442_j64811056496880_2_alg».proof.Proof.Gen.Kernel
import proofs.«127442_j64811056496880_2_alg».proof.Proof.Gen.Kernel.Skeleton
import proofs.«127442_j64811056496880_2_alg».proof.Proof.Gen.Kernel.Launch
import proofs.«127442_j64811056496880_2_alg».proof.Proof.Gen.Kernel.Points
import proofs.«127442_j64811056496880_2_alg».proof.Proof.Gen.Kernel.Frame
import proofs.«127442_j64811056496880_2_alg».proof.Proof.Gen.KernelIdeal
import proofs.«127442_j64811056496880_2_alg».proof.Proof.Gen.KernelIdeal.Skeleton
import proofs.«127442_j64811056496880_2_alg».proof.Proof.Gen.KernelIdeal.Launch
import proofs.«127442_j64811056496880_2_alg».proof.Proof.Gen.KernelIdeal.Points
import proofs.«127442_j64811056496880_2_alg».proof.Proof.Gen.KernelIdeal.Frame
import proofs.«127442_j64811056496880_2_alg».proof.Proof.Gen.ReferenceIdeal
import proofs.«127442_j64811056496880_2_alg».proof.Proof.Gen.Pre_finite_inputs
import proofs.«127442_j64811056496880_2_alg».proof.Proof.Bridge
import proofs.«127442_j64811056496880_2_alg».proof.Proof.KernelRun
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Bridge.frame_Kernel, Cert.Bridge.frame_KernelIdeal, Cert.Bridge.frame_ReferenceIdeal, Cert.Bridge.preserves,
    Cert.Bridge.algebraic_of_run fun m g => Cert.KernelIdeal.Run.run m g⟩

end Cert.Proof

end
